-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_0)) (v2 : (c : Dev Cert.KernelIdeal.nD) → Buf (Elt Ideal) ((c.tc : Thread Cert.KernelIdeal.nD Cert.KernelIdeal.τ).loc Cert.KernelIdeal.main_v58_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_0) = v1 c
          ∧ r.2.mem ((c.tc : Thread Cert.KernelIdeal.nD Cert.KernelIdeal.τ).loc Cert.KernelIdeal.main_v58_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_v274) = v1 c
          ∧ r.2.mem ((c.tc : Thread Cert.ReferenceIdeal.nD Cert.ReferenceIdeal.τ).loc Cert.ReferenceIdeal.main_v208) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000 : Shape := ⟨1, ![640000]⟩
abbrev S4x2x128x128 : Shape := ⟨4, ![4, 2, 128, 128]⟩
abbrev S4x128 : Shape := ⟨2, ![4, 128]⟩
abbrev S3x128 : Shape := ⟨2, ![3, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S4x2x128x128 : S_.BroadcastsInDim S4x2x128x128 (![] : Fin 0 → Fin S4x2x128x128.rank)
  reducesTo_S4x2x128x128_S_d0_1_2_3 : S4x2x128x128.ReducesTo [0, 1, 2, 3] S_
  bcast_S_S4x128 : S_.BroadcastsInDim S4x128 (![] : Fin 0 → Fin S4x128.rank)
  reducesTo_S4x128_S_d0_1 : S4x128.ReducesTo [0, 1] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg7 : FVec F S3x128 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  main_v38

def fn_part1 {F : FTy → Type} [FloatOps F] (main_arg4 : FVec F S4x2x128x128 .f32) (main_arg5 : FVec F S4x2x128x128 .f32) (main_arg6 : FVec F S4x128 .f32) (main_arg7 : FVec F S3x128 .f32) (main_v13 : IVec S_ 1) (main_v16 : IVec S20000x128 1) : IVec S_ 1 :=
  let main_c_5 : IVec S_ 1 := constantI S_ 1 1#1
  let main_v17 : IVec S_ 1 := (fun x v => Host.reduce IntOp.andi x v reducesTo_S20000x128_S_d0_1 h_S_) main_v16 main_c_5
  let main_v18 : IVec S_ 1 := andi main_v13 main_v17
  let main_v19 : FVec F S4x2x128x128 .f32 := Host.absf main_arg4
  let main_cst_6 : FVec F S_ .f32 := constant S_ .f32 0x7F800000#32
  let main_v20 : FVec F S4x2x128x128 .f32 := broadcastInDim S4x2x128x128 ![] bcast_S_S4x2x128x128 main_cst_6
  let main_v21 : IVec S4x2x128x128 1 := cmpf .olt main_v19 main_v20
  let main_c_7 : IVec S_ 1 := constantI S_ 1 1#1
  let main_v22 : IVec S_ 1 := (fun x v => Host.reduce IntOp.andi x v reducesTo_S4x2x128x128_S_d0_1_2_3 h_S_) main_v21 main_c_7
  let main_v23 : IVec S_ 1 := andi main_v18 main_v22
  let main_v24 : FVec F S4x2x128x128 .f32 := Host.absf main_arg5
  let main_cst_8 : FVec F S_ .f32 := constant S_ .f32 0x7F800000#32
  let main_v25 : FVec F S4x2x128x128 .f32 := broadcastInDim S4x2x128x128 ![] bcast_S_S4x2x128x128 main_cst_8
  let main_v26 : IVec S4x2x128x128 1 := cmpf .olt main_v24 main_v25
  let main_c_9 : IVec S_ 1 := constantI S_ 1 1#1
  let main_v27 : IVec S_ 1 := (fun x v => Host.reduce IntOp.andi x v reducesTo_S4x2x128x128_S_d0_1_2_3 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_v33

def fn {F : FTy → Type} [FloatOps F] (main_arg0 : FVec F S20000x128 .f32) (main_arg1 : FVec F S640000 .f32) (main_arg2 : FVec F S20000x128 .f32) (main_arg3 : FVec F S20000x128 .f32) (main_arg4 : FVec F S4x2x128x128 .f32) (main_arg5 : FVec F S4x2x128x128 .f32) (main_arg6 : FVec F S4x128 .f32) (main_arg7 : FVec F S3x128 .f32) (main_arg8 : IVec S640000 32) (main_arg9 : IVec S640000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S20000x128 .f32 := Host.absf main_arg3
  let main_cst_4 : FVec F S_ .f32 := constant S_ .f32 0x7F800000#32
  let main_v15 : FVec F S20000x128 .f32 := broadcastInDim S20000x128 ![] bcast_S_S20000x128 main_cst_4
  let main_v16 : IVec S20000x128 1 := cmpf .olt main_v14 main_v15
  fn_part1 (F := F) main_arg4 main_arg5 main_arg6 main_arg7 main_v13 main_v16
-- ==== Kernel.lean ====
abbrev S20000x128 : Shape := ⟨2, ![20000, 128]⟩
abbrev S640000 : Shape := ⟨1, ![640000]⟩
abbrev S4x2x128x128 : Shape := ⟨4, ![4, 2, 128, 128]⟩
abbrev S4x128 : Shape := ⟨2, ![4, 128]⟩
abbrev S3x128 : Shape := ⟨2, ![3, 128]⟩
abbrev S_ : Shape := ⟨0, ![]⟩
abbrev S20000 : Shape := ⟨1, ![20000]⟩
abbrev S640000x1 : Shape := ⟨2, ![640000, 1]⟩
abbrev S20000x256 : Shape := ⟨2, ![20000, 256]⟩
abbrev S640000x256 : Shape := ⟨2, ![640000, 256]⟩
abbrev S2x128x4x128 : Shape := ⟨4, ![2, 128, 4, 128]⟩
abbrev S256x512 : Shape := ⟨2, ![256, 512]⟩
abbrev S128x512 : Shape := ⟨2, ![128, 512]⟩
abbrev S2000x128 : Shape := ⟨2, ![2000, 128]⟩
abbrev S2000x512 : Shape := ⟨2, ![2000, 512]⟩
abbrev S1x128 : Shape := ⟨2, ![1, 128]⟩
abbrev S128 : Shape := ⟨1, ![128]⟩

abbrev nBuf : Space → Nat
  | .hbm => 83
  | .vmem => 20
  | .smem => 0
  | _ => 0

abbrev bufTy : (tb : Table) → Fin (tcTables nBuf tb) → BufTy
  | .hbm, ⟨0, _⟩ => ⟨S20000x128, .f32⟩
  | .hbm, ⟨1, _⟩ => ⟨S640000, .f32⟩
  | .hbm, ⟨2, _⟩ => ⟨S20000x128, .f32⟩
  | .hbm, ⟨3, _⟩ => ⟨S20000x128, .f32⟩
  | .hbm, ⟨4, _⟩ => ⟨S4x2x128x128, .f32⟩
  | .hbm, ⟨5, _⟩ => ⟨S4x2x128x128, .f32⟩
  | .hbm, ⟨6, _⟩ => ⟨S4x128, .f32⟩
  | .hbm, ⟨7, _⟩ => ⟨S3x128, .f32⟩
  | .hbm, ⟨8, _⟩ => ⟨S640000, .i32⟩
  | .hbm, ⟨9, _⟩ => ⟨S640000, .i32⟩
  | .hbm, ⟨10, _⟩ => ⟨S_, .f32⟩
  | .hbm, ⟨11, _⟩ => ⟨S20000, .f32⟩
  | .hbm, ⟨12, _⟩ => ⟨S640000x1, .i32⟩
  | .hbm, ⟨13, _⟩ => ⟨S20000, .f32⟩
  | .hbm, ⟨14, _⟩ => ⟨S_, .f32⟩
  | .hbm, ⟨15, _⟩ => ⟨S20000, .f32⟩
  | .hbm, ⟨16, _⟩ => ⟨S20000, .i1⟩
  | .hbm, ⟨17, _⟩ => ⟨S_, .f32⟩
  | .hbm, ⟨18, _⟩ => ⟨S20000, .f32⟩
  | .hbm, ⟨19, _⟩ => ⟨S20000, .f32⟩
  | .hbm, ⟨20, _⟩ => ⟨S20000, .f32⟩
  | .hbm, ⟨21, _⟩ => ⟨S_, .f32⟩
  | .hbm, ⟨22, _⟩ => ⟨S_, .f32⟩
  | .hbm, ⟨23, _⟩ => ⟨S20000, .f32⟩
  | .hbm, ⟨24, _⟩ => ⟨S20000, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000, .f32⟩
  | .hbm, ⟨34, _⟩ => ⟨S640000, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000, .f32⟩
  | .hbm, ⟨44, _⟩ => ⟨S640000, .f32⟩
  | .hbm, ⟨45, _⟩ => ⟨S20000x256, .f32⟩
  | .hbm, ⟨46, _⟩ => ⟨S640000x1, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x256, .f32⟩
  | .hbm, ⟨56, _⟩ => ⟨S640000x256, .f32⟩
  | .hbm, ⟨57, _⟩ => ⟨S640000x256, .f32⟩
  | .hbm, ⟨58, _⟩ => ⟨S_, .f32⟩
  | .hbm, ⟨59, _⟩ => ⟨S20000x256, .f32⟩
  | .hbm, ⟨60, _⟩ => ⟨S640000x1, .i32⟩
  | .hbm, ⟨61, _⟩ => ⟨S20000x256, .f32⟩
  | .hbm, ⟨62, _⟩ => ⟨S20000x256, .f32⟩
  | .hbm, ⟨63, _⟩ => ⟨S20000x128, .f32⟩
  | .hbm, ⟨64, _⟩ => ⟨S20000x128, .f32⟩
  | .hbm, ⟨65, _⟩ => ⟨S2x128x4x128, .f32⟩
  | .hbm, ⟨66, _⟩ => ⟨S256x512, .f32⟩
  | .hbm, ⟨67, _⟩ => ⟨S2x128x4x128, .f32⟩
  | .hbm, ⟨68, _⟩ => ⟨S256x512, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S128x512, .f32⟩
  | .hbm, ⟨73, _⟩ => ⟨S20000x128, .bf16⟩
  | .hbm, ⟨74, _⟩ => ⟨S20000x128, .bf16⟩
  | .hbm, ⟨75, _⟩ => ⟨S20000x128, .bf16⟩
  | .hbm, ⟨76, _⟩ => ⟨S20000x128, .bf16⟩
  | .hbm, ⟨77, _⟩ => ⟨S128x512, .bf16⟩
  | .hbm, ⟨78, _⟩ => ⟨S128x512, .bf16⟩
  | .hbm, ⟨79, _⟩ => ⟨S128x512, .bf16⟩
  | .hbm, ⟨80, _⟩ => ⟨S128x512, .bf16⟩
  | .hbm, ⟨81, _⟩ => ⟨S20000x128, .f32⟩
  | .hbm, ⟨82, _⟩ => ⟨S20000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S2000x128, .bf16⟩
  | .local _ .vmem, ⟨7, _⟩ => ⟨S2000x128, .bf16⟩
  | .local _ .vmem, ⟨8, _⟩ => ⟨S2000x128, .f32⟩
  | .local _ .vmem, ⟨9, _⟩ => ⟨S2000x128, .f32⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S3x128, .f32⟩
  | .local _ .vmem, ⟨15, _⟩ => ⟨S4x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58_0 : Ref sig .tc := ⟨.hbm, 81, rfl⟩
abbrev main_v58_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S20000 : S_.BroadcastsInDim S20000 (![] : Fin 0 → Fin S20000.rank)
  bcast_S640000_S640000x1_0 : S640000.BroadcastsInDim S640000x1 (![0] : Fin 1 → Fin S640000x1.rank)
  bcast_S_S640000 : S_.BroadcastsInDim S640000 (![] : Fin 0 → Fin S640000.rank)
  concatenates_S20000x128_S20000x128_S20000x256_d1 : Shape.Concatenates [S20000x128, S20000x128] S20000x256 1
  bcast_S640000x1_S640000x256_0_1 : S640000x1.BroadcastsInDim S640000x256 (![0, 1] : Fin 2 → Fin S640000x256.rank)
  bcast_S_S20000x256 : S_.BroadcastsInDim S20000x256 (![] : Fin 0 → Fin S20000x256.rank)
  slices_S20000x256_S20000x128_0_0 : S20000x256.Slices ![0, 0] S20000x128
  slices_S20000x256_S20000x128_0_128 : S20000x256.Slices ![0, 128] S20000x128
  transposes_S4x2x128x128_S2x128x4x128_1_2_0_3 : S4x2x128x128.Transposes [1, 2, 0, 3] S2x128x4x128
  shapeCasts_S2x128x4x128_S256x512 : S2x128x4x128.ShapeCasts S256x512
  slices_S256x512_S128x512_0_0 : S256x512.Slices ![0, 0] S128x512
  slices_S256x512_S128x512_128_0 : S256x512.Slices ![128, 0] S128x512
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S3x128_S3x128_0_0 : ∀ a, (![0, 0] : Fin 2 → Nat) a + S3x128.size a ≤ S3x128.size a
  h_S3x128 : 0 < S3x128.numel
  inb_S4x128_S4x128_0_0 : ∀ a, (![0, 0] : Fin 2 → Nat) a + S4x128.size a ≤ S4x128.size a
  h_S4x128 : 0 < S4x128.numel
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  slices_S3x128_o0_0_S1x128 : S3x128.Slices ![0, 0] S1x128
  shapeCasts_S1x128_S128 : S1x128.ShapeCasts S128
  shapeCasts_S128_S1x128 : S128.ShapeCasts S1x128
  broadcasts_S1x128_S2000x128 : S1x128.Broadcasts S2000x128
  slices_S4x128_o0_0_S1x128 : S4x128.Slices ![0, 0] S1x128
  slices_S3x128_o1_0_S1x128 : S3x128.Slices ![1, 0] S1x128
  slices_S4x128_o1_0_S1x128 : S4x128.Slices ![1, 0] S1x128
  slices_S4x128_o2_0_S1x128 : S4x128.Slices ![2, 0] S1x128
  slices_S3x128_o2_0_S1x128 : S3x128.Slices ![2, 0] S1x128
  slices_S4x128_o3_0_S1x128 : S4x128.Slices ![3, 0] S1x128
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .bf16 = 32 ∨ (Rect.block (s := S20000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .bf16 = 32 ∨ (Rect.block (s := S20000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .bf16 = 32 ∨ (Rect.block (s := S20000x128) S2000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .bf16 = 32 ∨ (Rect.block (s := S20000x128) S2000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S20000x128.size a
  hwx0_4 : ∀ i : grid0.Coords, EltTy.bits .f32 = 32 ∨ (Rect.block (s := S20000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .bf16 = 32 ∨ (Rect.block (s := S128x512) S128x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .bf16 = 32 ∨ (Rect.block (s := S128x512) S128x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x512.size a
  hwx0_8 : ∀ i : grid0.Coords, EltTy.bits .bf16 = 32 ∨ (Rect.block (s := S128x512) S128x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128.size a ≤ S3x128.size a
  hwx0_9 : ∀ i : grid0.Coords, EltTy.bits .f32 = 32 ∨ (Rect.block (s := S3x128) S3x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x128.size a ≤ S4x128.size a
  hwx0_10 : ∀ i : grid0.Coords, EltTy.bits .f32 = 32 ∨ (Rect.block (s := S4x128) S4x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S20000x128.size a
  hwx0_11 : ∀ i : grid0.Coords, EltTy.bits .f32 = 32 ∨ (Rect.block (s := S20000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S20000x128.size a
  hwx0_12 : ∀ i : grid0.Coords, EltTy.bits .f32 = 32 ∨ (Rect.block (s := S20000x128) S2000x128.size (cc0_transform_12 i) (hinb0_12 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_v50) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v57) S128x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S3x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S4x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v58_0) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v58_1) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S20000x128 : Shape := ⟨2, ![20000, 128]⟩
abbrev S640000 : Shape := ⟨1, ![640000]⟩
abbrev S4x2x128x128 : Shape := ⟨4, ![4, 2, 128, 128]⟩
abbrev S4x128 : Shape := ⟨2, ![4, 128]⟩
abbrev S3x128 : Shape := ⟨2, ![3, 128]⟩
abbrev S_ : Shape := ⟨0, ![]⟩
abbrev S20000 : Shape := ⟨1, ![20000]⟩
abbrev S640000x1 : Shape := ⟨2, ![640000, 1]⟩
abbrev S1x2x128x128 : Shape := ⟨4, ![1, 2, 128, 128]⟩
abbrev S2x128x128 : Shape := ⟨3, ![2, 128, 128]⟩
abbrev S1x128x128 : Shape := ⟨3, ![1, 128, 128]⟩
abbrev S128x128 : Shape := ⟨2, ![128, 128]⟩
abbrev S640000x128 : Shape := ⟨2, ![640000, 128]⟩
abbrev S1x128 : Shape := ⟨2, ![1, 128]⟩
abbrev S128 : Shape := ⟨1, ![128]⟩

abbrev nBuf : Space → Nat
  | .hbm => 325
  | .vmem => 0
  | .smem => 0
  | _ => 0

abbrev hbmTy0_0 (i : Nat) : BufTy := match i % 128 with
  | 0 => ⟨S20000x128, .f32⟩
  | 1 => ⟨S640000, .f32⟩
  | 2 => ⟨S20000x128, .f32⟩
  | 3 => ⟨S20000x128, .f32⟩
  | 4 => ⟨S4x2x128x128, .f32⟩
  | 5 => ⟨S4x2x128x128, .f32⟩
  | 6 => ⟨S4x128, .f32⟩
  | 7 => ⟨S3x128, .f32⟩
  | 8 => ⟨S640000, .i32⟩
  | 9 => ⟨S640000, .i32⟩
  | 10 => ⟨S_, .f32⟩
  | 11 => ⟨S20000, .f32⟩
  | 12 => ⟨S640000x1, .i32⟩
  | 13 => ⟨S20000, .f32⟩
  | 14 => ⟨S_, .f32⟩
  | 15 => ⟨S20000, .f32⟩
  | 16 => ⟨S20000, .i1⟩
  | 17 => ⟨S_, .f32⟩
  | 18 => ⟨S20000, .f32⟩
  | 19 => ⟨S20000, .f32⟩
  | 20 => ⟨S20000, .f32⟩
  | 21 => ⟨S_, .f32⟩
  | 22 => ⟨S_, .f32⟩
  | 23 => ⟨S20000, .f32⟩
  | 24 => ⟨S20000, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000, .f32⟩
  | 34 => ⟨S640000, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000, .f32⟩
  | 44 => ⟨S640000, .f32⟩
  | 45 => ⟨S1x2x128x128, .f32⟩
  | 46 => ⟨S2x128x128, .f32⟩
  | 47 => ⟨S1x128x128, .f32⟩
  | 48 => ⟨S128x128, .f32⟩
  | 49 => ⟨S20000x128, .f32⟩
  | 50 => ⟨S640000x1, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x128, .f32⟩
  | 61 => ⟨S640000x128, .f32⟩
  | 62 => ⟨S_, .f32⟩
  | 63 => ⟨S20000x128, .f32⟩
  | 64 => ⟨S640000x1, .i32⟩
  | 65 => ⟨S20000x128, .f32⟩
  | 66 => ⟨S20000x128, .f32⟩
  | 67 => ⟨S1x128x128, .f32⟩
  | 68 => ⟨S128x128, .f32⟩
  | 69 => ⟨S20000x128, .f32⟩
  | 70 => ⟨S20000x128, .f32⟩
  | 71 => ⟨S1x2x128x128, .f32⟩
  | 72 => ⟨S2x128x128, .f32⟩
  | 73 => ⟨S1x128x128, .f32⟩
  | 74 => ⟨S128x128, .f32⟩
  | 75 => ⟨S20000x128, .f32⟩
  | 76 => ⟨S640000x1, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x128, .f32⟩
  | 86 => ⟨S640000x128, .f32⟩
  | 87 => ⟨S640000x128, .f32⟩
  | 88 => ⟨S_, .f32⟩
  | 89 => ⟨S20000x128, .f32⟩
  | 90 => ⟨S640000x1, .i32⟩
  | 91 => ⟨S20000x128, .f32⟩
  | 92 => ⟨S20000x128, .f32⟩
  | 93 => ⟨S1x128x128, .f32⟩
  | 94 => ⟨S128x128, .f32⟩
  | 95 => ⟨S20000x128, .f32⟩
  | 96 => ⟨S20000x128, .f32⟩
  | 97 => ⟨S20000x128, .f32⟩
  | 98 => ⟨S1x128, .f32⟩
  | 99 => ⟨S128, .f32⟩
  | 100 => ⟨S1x128, .f32⟩
  | 101 => ⟨S20000x128, .f32⟩
  | 102 => ⟨S20000x128, .f32⟩
  | 103 => ⟨S20000x128, .f32⟩
  | 104 => ⟨S1x128, .f32⟩
  | 105 => ⟨S128, .f32⟩
  | 106 => ⟨S1x128, .f32⟩
  | 107 => ⟨S20000x128, .f32⟩
  | 108 => ⟨S20000x128, .f32⟩
  | 109 => ⟨S20000x128, .f32⟩
  | 110 => ⟨S20000x128, .f32⟩
  | 111 => ⟨S_, .f32⟩
  | 112 => ⟨S20000x128, .f32⟩
  | 113 => ⟨S20000x128, .f32⟩
  | 114 => ⟨S_, .f32⟩
  | 115 => ⟨S20000x128, .f32⟩
  | 116 => ⟨S20000x128, .f32⟩
  | 117 => ⟨S1x2x128x128, .f32⟩
  | 118 => ⟨S2x128x128, .f32⟩
  | 119 => ⟨S1x128x128, .f32⟩
  | 120 => ⟨S128x128, .f32⟩
  | 121 => ⟨S20000x128, .f32⟩
  | 122 => ⟨S640000x1, .f32⟩
  | 123 => ⟨S_, .i32⟩
  | 124 => ⟨S640000, .i32⟩
  | 125 => ⟨S640000, .i1⟩
  | 126 => ⟨S_, .i32⟩
  | 127 => ⟨S640000, .i32⟩
  | _ => ⟨S20000x128, .f32⟩

abbrev hbmTy0_1 (i : Nat) : BufTy := match i % 128 with
  | 0 => ⟨S640000, .i32⟩
  | 1 => ⟨S640000, .i32⟩
  | 2 => ⟨S640000x1, .i32⟩
  | 3 => ⟨S640000x128, .f32⟩
  | 4 => ⟨S640000x128, .f32⟩
  | 5 => ⟨S640000x128, .f32⟩
  | 6 => ⟨S_, .f32⟩
  | 7 => ⟨S20000x128, .f32⟩
  | 8 => ⟨S640000x1, .i32⟩
  | 9 => ⟨S20000x128, .f32⟩
  | 10 => ⟨S20000x128, .f32⟩
  | 11 => ⟨S1x128x128, .f32⟩
  | 12 => ⟨S128x128, .f32⟩
  | 13 => ⟨S20000x128, .f32⟩
  | 14 => ⟨S20000x128, .f32⟩
  | 15 => ⟨S1x2x128x128, .f32⟩
  | 16 => ⟨S2x128x128, .f32⟩
  | 17 => ⟨S1x128x128, .f32⟩
  | 18 => ⟨S128x128, .f32⟩
  | 19 => ⟨S20000x128, .f32⟩
  | 20 => ⟨S640000x1, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S640000x128, .f32⟩
  | 31 => ⟨S640000x128, .f32⟩
  | 32 => ⟨S_, .f32⟩
  | 33 => ⟨S20000x128, .f32⟩
  | 34 => ⟨S640000x1, .i32⟩
  | 35 => ⟨S20000x128, .f32⟩
  | 36 => ⟨S20000x128, .f32⟩
  | 37 => ⟨S1x128x128, .f32⟩
  | 38 => ⟨S128x128, .f32⟩
  | 39 => ⟨S20000x128, .f32⟩
  | 40 => ⟨S20000x128, .f32⟩
  | 41 => ⟨S20000x128, .f32⟩
  | 42 => ⟨S1x128, .f32⟩
  | 43 => ⟨S128, .f32⟩
  | 44 => ⟨S1x128, .f32⟩
  | 45 => ⟨S20000x128, .f32⟩
  | 46 => ⟨S20000x128, .f32⟩
  | 47 => ⟨S20000x128, .f32⟩
  | 48 => ⟨S1x128, .f32⟩
  | 49 => ⟨S128, .f32⟩
  | 50 => ⟨S1x128, .f32⟩
  | 51 => ⟨S20000x128, .f32⟩
  | 52 => ⟨S20000x128, .f32⟩
  | 53 => ⟨S20000x128, .f32⟩
  | 54 => ⟨S20000x128, .f32⟩
  | 55 => ⟨S_, .f32⟩
  | 56 => ⟨S20000x128, .f32⟩
  | 57 => ⟨S20000x128, .f32⟩
  | 58 => ⟨S_, .f32⟩
  | 59 => ⟨S20000x128, .f32⟩
  | 60 => ⟨S20000x128, .f32⟩
  | 61 => ⟨S20000x128, .f32⟩
  | 62 => ⟨S1x2x128x128, .f32⟩
  | 63 => ⟨S2x128x128, .f32⟩
  | 64 => ⟨S1x128x128, .f32⟩
  | 65 => ⟨S128x128, .f32⟩
  | 66 => ⟨S20000x128, .f32⟩
  | 67 => ⟨S640000x1, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x128, .f32⟩
  | 77 => ⟨S640000x128, .f32⟩
  | 78 => ⟨S640000x128, .f32⟩
  | 79 => ⟨S_, .f32⟩
  | 80 => ⟨S20000x128, .f32⟩
  | 81 => ⟨S640000x1, .i32⟩
  | 82 => ⟨S20000x128, .f32⟩
  | 83 => ⟨S20000x128, .f32⟩
  | 84 => ⟨S1x128x128, .f32⟩
  | 85 => ⟨S128x128, .f32⟩
  | 86 => ⟨S20000x128, .f32⟩
  | 87 => ⟨S20000x128, .f32⟩
  | 88 => ⟨S1x2x128x128, .f32⟩
  | 89 => ⟨S2x128x128, .f32⟩
  | 90 => ⟨S1x128x128, .f32⟩
  | 91 => ⟨S128x128, .f32⟩
  | 92 => ⟨S20000x128, .f32⟩
  | 93 => ⟨S640000x1, .f32⟩
  | 94 => ⟨S_, .i32⟩
  | 95 => ⟨S640000, .i32⟩
  | 96 => ⟨S640000, .i1⟩
  | 97 => ⟨S_, .i32⟩
  | 98 => ⟨S640000, .i32⟩
  | 99 => ⟨S640000, .i32⟩
  | 100 => ⟨S640000, .i32⟩
  | 101 => ⟨S640000x1, .i32⟩
  | 102 => ⟨S640000x128, .f32⟩
  | 103 => ⟨S640000x128, .f32⟩
  | 104 => ⟨S640000x128, .f32⟩
  | 105 => ⟨S_, .f32⟩
  | 106 => ⟨S20000x128, .f32⟩
  | 107 => ⟨S640000x1, .i32⟩
  | 108 => ⟨S20000x128, .f32⟩
  | 109 => ⟨S20000x128, .f32⟩
  | 110 => ⟨S1x128x128, .f32⟩
  | 111 => ⟨S128x128, .f32⟩
  | 112 => ⟨S20000x128, .f32⟩
  | 113 => ⟨S20000x128, .f32⟩
  | 114 => ⟨S20000x128, .f32⟩
  | 115 => ⟨S1x128, .f32⟩
  | 116 => ⟨S128, .f32⟩
  | 117 => ⟨S1x128, .f32⟩
  | 118 => ⟨S20000x128, .f32⟩
  | 119 => ⟨S20000x128, .f32⟩
  | 120 => ⟨S20000x128, .f32⟩
  | 121 => ⟨S20000x128, .f32⟩
  | 122 => ⟨S20000x128, .f32⟩
  | 123 => ⟨S1x2x128x128, .f32⟩
  | 124 => ⟨S2x128x128, .f32⟩
  | 125 => ⟨S1x128x128, .f32⟩
  | 126 => ⟨S128x128, .f32⟩
  | 127 => ⟨S20000x128, .f32⟩
  | _ => ⟨S20000x128, .f32⟩

abbrev hbmTy0_2 (i : Nat) : BufTy := match i % 128 with
  | 0 => ⟨S640000x1, .f32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000x128, .f32⟩
  | 10 => ⟨S640000x128, .f32⟩
  | 11 => ⟨S640000x128, .f32⟩
  | 12 => ⟨S_, .f32⟩
  | 13 => ⟨S20000x128, .f32⟩
  | 14 => ⟨S640000x1, .i32⟩
  | 15 => ⟨S20000x128, .f32⟩
  | 16 => ⟨S20000x128, .f32⟩
  | 17 => ⟨S1x128x128, .f32⟩
  | 18 => ⟨S128x128, .f32⟩
  | 19 => ⟨S20000x128, .f32⟩
  | 20 => ⟨S20000x128, .f32⟩
  | 21 => ⟨S1x2x128x128, .f32⟩
  | 22 => ⟨S2x128x128, .f32⟩
  | 23 => ⟨S1x128x128, .f32⟩
  | 24 => ⟨S128x128, .f32⟩
  | 25 => ⟨S20000x128, .f32⟩
  | 26 => ⟨S640000x1, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x128, .f32⟩
  | 36 => ⟨S640000x128, .f32⟩
  | 37 => ⟨S640000x128, .f32⟩
  | 38 => ⟨S_, .f32⟩
  | 39 => ⟨S20000x128, .f32⟩
  | 40 => ⟨S640000x1, .i32⟩
  | 41 => ⟨S20000x128, .f32⟩
  | 42 => ⟨S20000x128, .f32⟩
  | 43 => ⟨S1x128x128, .f32⟩
  | 44 => ⟨S128x128, .f32⟩
  | 45 => ⟨S20000x128, .f32⟩
  | 46 => ⟨S20000x128, .f32⟩
  | 47 => ⟨S20000x128, .f32⟩
  | 48 => ⟨S1x128, .f32⟩
  | 49 => ⟨S128, .f32⟩
  | 50 => ⟨S1x128, .f32⟩
  | 51 => ⟨S20000x128, .f32⟩
  | 52 => ⟨S20000x128, .f32⟩
  | 53 => ⟨S20000x128, .f32⟩
  | 54 => ⟨S1x128, .f32⟩
  | 55 => ⟨S128, .f32⟩
  | 56 => ⟨S1x128, .f32⟩
  | 57 => ⟨S20000x128, .f32⟩
  | 58 => ⟨S20000x128, .f32⟩
  | 59 => ⟨S20000x128, .f32⟩
  | 60 => ⟨S20000x128, .f32⟩
  | 61 => ⟨S_, .f32⟩
  | 62 => ⟨S20000x128, .f32⟩
  | 63 => ⟨S20000x128, .f32⟩
  | 64 => ⟨S_, .f32⟩
  | 65 => ⟨S20000x128, .f32⟩
  | 66 => ⟨S20000x128, .f32⟩
  | 67 => ⟨S20000x128, .f32⟩
  | 68 => ⟨S20000x128, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_14 : Ref sig .tc := ⟨.hbm, 123, rfl⟩
abbrev main_v95 : Ref sig .tc := ⟨.hbm, 124, rfl⟩
abbrev main_v96 : Ref sig .tc := ⟨.hbm, 125, rfl⟩
abbrev main_c_15 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_16 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_c_17 : Ref sig .tc := ⟨.hbm, 149, rfl⟩
abbrev main_v118 : Ref sig .tc := ⟨.hbm, 150, rfl⟩
abbrev main_v119 : Ref sig .tc := ⟨.hbm, 151, rfl⟩
abbrev main_c_18 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_19 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_20 : Ref sig .tc := ⟨.hbm, 183, rfl⟩
abbrev main_v149 : Ref sig .tc := ⟨.hbm, 184, rfl⟩
abbrev main_v150 : Ref sig .tc := ⟨.hbm, 185, rfl⟩
abbrev main_cst_21 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_c_22 : Ref sig .tc := ⟨.hbm, 196, rfl⟩
abbrev main_v160 : Ref sig .tc := ⟨.hbm, 197, rfl⟩
abbrev main_v161 : Ref sig .tc := ⟨.hbm, 198, rfl⟩
abbrev main_c_23 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_24 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_c_25 : Ref sig .tc := ⟨.hbm, 222, rfl⟩
abbrev main_v183 : Ref sig .tc := ⟨.hbm, 223, rfl⟩
abbrev main_v184 : Ref sig .tc := ⟨.hbm, 224, rfl⟩
abbrev main_c_26 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_cst_27 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_c_28 : Ref sig .tc := ⟨.hbm, 257, rfl⟩
abbrev main_v215 : Ref sig .tc := ⟨.hbm, 258, rfl⟩
abbrev main_v216 : Ref sig .tc := ⟨.hbm, 259, rfl⟩
abbrev main_c_29 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_cst_30 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_c_31 : Ref sig .tc := ⟨.hbm, 283, rfl⟩
abbrev main_v238 : Ref sig .tc := ⟨.hbm, 284, rfl⟩
abbrev main_v239 : Ref sig .tc := ⟨.hbm, 285, rfl⟩
abbrev main_c_32 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_cst_33 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_cst_34 : Ref sig .tc := ⟨.hbm, 317, rfl⟩
abbrev main_v269 : Ref sig .tc := ⟨.hbm, 318, rfl⟩
abbrev main_v270 : Ref sig .tc := ⟨.hbm, 319, rfl⟩
abbrev main_cst_35 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S640000_S640000x1_0 : S640000.BroadcastsInDim S640000x1 (![0] : Fin 1 → Fin S640000x1.rank)
  bcast_S_S640000 : S_.BroadcastsInDim S640000 (![] : Fin 0 → Fin S640000.rank)
  slices_S4x2x128x128_S1x2x128x128_0_0_0_0 : S4x2x128x128.Slices ![0, 0, 0, 0] S1x2x128x128
  shapeCasts_S1x2x128x128_S2x128x128 : S1x2x128x128.ShapeCasts S2x128x128
  slices_S2x128x128_S1x128x128_0_0_0 : S2x128x128.Slices ![0, 0, 0] S1x128x128
  shapeCasts_S1x128x128_S128x128 : S1x128x128.ShapeCasts S128x128
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  slices_S2x128x128_S1x128x128_1_0_0 : S2x128x128.Slices ![1, 0, 0] S1x128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S4x128_S1x128_0_0 : S4x128.Slices ![0, 0] S1x128
  slices_S4x2x128x128_S1x2x128x128_1_0_0_0 : S4x2x128x128.Slices ![1, 0, 0, 0] S1x2x128x128
  slices_S3x128_S1x128_1_0 : S3x128.Slices ![1, 0] S1x128
  slices_S4x128_S1x128_1_0 : S4x128.Slices ![1, 0] S1x128
  slices_S4x2x128x128_S1x2x128x128_2_0_0_0 : S4x2x128x128.Slices ![2, 0, 0, 0] S1x2x128x128
  slices_S4x128_S1x128_2_0 : S4x128.Slices ![2, 0] S1x128
  slices_S4x2x128x128_S1x2x128x128_3_0_0_0 : S4x2x128x128.Slices ![3, 0, 0, 0] S1x2x128x128
  slices_S3x128_S1x128_2_0 : S3x128.Slices ![2, 0] S1x128
  slices_S4x128_S1x128_3_0 : S4x128.Slices ![3, 0] S1x128
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.Spec.lean ====
/-
  The cell this kernel computes, entry by entry, on the extended reals.

  N = 20000 nodes with 128 features. Four gates g = 0..3 (input, forget, candidate, output); each gate's
  pre-activation at node r, feature j is a first-order Chebyshev projection of x and of h:

      pre g (r, j) = (Σ_k x (r, k) · Wx (g, 0, k, j) + Σ_k Lx (r, k) · Wx (g, 1, k, j))
                   + (Σ_k h (r, k) · Wh (g, 0, k, j) + Σ_k Lh (r, k) · Wh (g, 1, k, j))

  where Lx and Lh are the propagated features (the scaled Laplacian applied to x and to h); here they are two more
  arrays, whatever they hold. Then, with σ the logistic function,

      i = σ (pre 0 + wc 0 · c + b 0)        f = σ (pre 1 + wc 1 · c + b 1)        g = tanh (pre 2 + b 2)
      c' = f · c + i · g                    o = σ (pre 3 + wc 2 · c' + b 3)        h' = o · tanh c'

  all at (r, j), wc and b read at (gate row, j). The sums are written in exactly this grouping; nothing is
  rearranged, so no finiteness is needed anywhere.
-/
import Idealize.ShloMosaic.PureOps.Ideal
import Idealize.ShloMosaic.Lib.ValueIdx

noncomputable section

open scoped BigOperators

namespace Cert.GateSpec

open Idealize.ShloMosaic Idealize.ShloMosaic.ValueIdx

/-- Node features: 20000 × 128. -/
abbrev Act := (⟨2, ![20000, 128]⟩ : Shape).Idx → EReal
/-- Chebyshev weights: gate × order × in-feature × out-feature. -/
abbrev Wts := (⟨4, ![4, 2, 128, 128]⟩ : Shape).Idx → EReal

/-- One branch of a gate: x · W[g, 0] + Lx · W[g, 1] at (r, j). -/
def cheb (x Lx : Act) (W : Wts) (g : Fin 4) (r : Fin 20000) (j : Fin 128) : EReal :=
  (∑ k : Fin 128, x (ix2 r k) * W (ix4 g (0 : Fin 2) k j)) + (∑ k : Fin 128, Lx (ix2 r k) * W (ix4 g (1 : Fin 2) k j))

/-- Gate g's pre-activation before the peephole and the bias: the x branch plus the h branch. -/
def pre (x Lx h Lh : Act) (Wx Wh : Wts) (g : Fin 4) (r : Fin 20000) (j : Fin 128) : EReal :=
  cheb x Lx Wx g r j + cheb h Lh Wh g r j

section Cell

variable (x Lx h Lh c : Act) (Wx Wh : Wts) (wc : (⟨2, ![3, 128]⟩ : Shape).Idx → EReal)
  (b : (⟨2, ![4, 128]⟩ : Shape).Idx → EReal) (r : Fin 20000) (j : Fin 128)

/-- The input gate. -/
def iGate : EReal :=
  Ideal.logistic ((pre x Lx h Lh Wx Wh 0 r j + wc (ix2 (0 : Fin 3) j) * c (ix2 r j)) + b (ix2 (0 : Fin 4) j))
/-- The forget gate. -/
def fGate : EReal :=
  Ideal.logistic ((pre x Lx h Lh Wx Wh 1 r j + wc (ix2 (1 : Fin 3) j) * c (ix2 r j)) + b (ix2 (1 : Fin 4) j))
/-- The candidate. -/
def gGate : EReal :=
  Ideal.tanh (pre x Lx h Lh Wx Wh 2 r j + b (ix2 (2 : Fin 4) j))
/-- The new cell state c' = f · c + i · g. -/
def cNew : EReal :=
  fGate x Lx h Lh c Wx Wh wc b r j * c (ix2 r j) + iGate x Lx h Lh c Wx Wh wc b r j * gGate x Lx h Lh Wx Wh b r j
/-- The output gate, with its peephole on the NEW cell state. -/
def oGate : EReal :=
  Ideal.logistic ((pre x Lx h Lh Wx Wh 3 r j + wc (ix2 (2 : Fin 3) j) * cNew x Lx h Lh c Wx Wh wc b r j) + b (ix2 (3 : Fin 4) j))
/-- The new hidden state h' = o · tanh c'. -/
def hNew : EReal :=
  oGate x Lx h Lh c Wx Wh wc b r j * Ideal.tanh (cNew x Lx h Lh c Wx Wh wc b r j)

end Cell

/-- The word 0x3F800000 is the number one. -/
theorem ofBits_one_f32 : Ideal.ofBits .f32 0x3F800000#32 = 1 := by
  simp [Ideal.ofBits, Ideal.ieee, -EReal.coe_mul]; norm_num

/-- The logistic function as jax's host expansion spells it: one over one plus the exponential of the negation. -/
theorem logistic_expanded (z : EReal) : Ideal.div 1 (1 + Ideal.exp (-z)) = Ideal.logistic z := rfl

end Cert.GateSpec

end
-- ==== Proof.KernelHost.lean ====
/-
  What the host writes before the kernel is launched, as terms of the argument arrays.

  Before the region @main computes, from x, the edge weights, h, the two weight tensors and the two index lists:
  the symmetric edge normalisation w (one number per edge), the propagated features of x and h in ONE pass — the
  edge-weighted rows of the concatenation [x | h] gathered at the source node and added into the destination node's
  row, negated, then cut back into its x half and its h half —, the weight tensors re-laid as two 256 × 512
  matrices (rows: order × in-feature, columns: gate × out-feature) and cut into their order-0 and order-1 halves,
  and every one of these narrowed to bf16. The kernel's windows stage exactly these arrays; this module names each
  as a function of the arguments and reads it off the host operations.
-/
import proofs.«116808_j35459249996211_2_alg».proof.Proof.Gen.KernelIdeal.Frame
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-- The contents of an f32 / bf16 / i32 / i1 buffer of shape S. -/
abbrev Cf (F : FTy → Type) (S : Shape) := (⟨S, .f32⟩ : BufTy).Contents (Elt F)
abbrev Cb (F : FTy → Type) (S : Shape) := (⟨S, .bf16⟩ : BufTy).Contents (Elt F)
abbrev Ci (F : FTy → Type) (S : Shape) := (⟨S, .i32⟩ : BufTy).Contents (Elt F)
abbrev Cp (F : FTy → Type) (S : Shape) := (⟨S, .i1⟩ : BufTy).Contents (Elt F)

/-- A length-20000 vector of zeros. -/
def zeros20000 : (Cf F S20000) :=
  (broadcastInDim S20000 ![] bcast_S_S20000 : (Cf F S_) → (Cf F S20000)) (constant S_ .f32 0x00000000#32)

/-- An index list as a one-column table. -/
def col (x : (Ci F S640000)) : (Ci F S640000x1) :=
  (broadcastInDim S640000x1 ![0] bcast_S640000_S640000x1_0 : (Ci F S640000) → (Ci F S640000x1)) x

/-- A negative index counted from the end: i < 0 ↦ i + 20000. -/
def norm (x : (Ci F S640000)) : (Ci F S640000) :=
  (select : (Cp F S640000) → (Ci F S640000) → (Ci F S640000) → (Ci F S640000))
    ((cmpi .slt : (Ci F S640000) → (Ci F S640000) → (Cp F S640000)) x
      ((broadcastInDim S640000 ![] bcast_S_S640000 : (Ci F S_) → (Ci F S640000)) (constantI S_ 32 0#32)))
    ((addi : (Ci F S640000) → (Ci F S640000) → (Ci F S640000)) x
      ((broadcastInDim S640000 ![] bcast_S_S640000 : (Ci F S_) → (Ci F S640000)) (constantI S_ 32 20000#32)))
    x

/-- The weighted out-degree of every node. -/
def deg (x1 : (Cf F S640000)) (x8 : (Ci F S640000)) : (Cf F S20000) :=
  ((fun x i u => Host.scatterAdd scatter_S20000_S640000x1_S640000_n_0_0_1 x i u) :
      (Cf F S20000) → (Ci F S640000x1) → (Cf F S640000) → (Cf F S20000)) zeros20000 (col x8) x1

/-- deg^(-1/2) where the degree is positive, zero elsewhere. -/
def dis (x1 : (Cf F S640000)) (x8 : (Ci F S640000)) : (Cf F S20000) :=
  (select : (Cp F S20000) → (Cf F S20000) → (Cf F S20000) → (Cf F S20000))
    ((cmpf .ogt : (Cf F S20000) → (Cf F S20000) → (Cp F S20000)) (deg x1 x8) zeros20000)
    ((Host.rsqrt : (Cf F S20000) → (Cf F S20000))
      ((maximumf : (Cf F S20000) → (Cf F S20000) → (Cf F S20000)) (deg x1 x8)
        ((broadcastInDim S20000 ![] bcast_S_S20000 : (Cf F S_) → (Cf F S20000)) (constant S_ .f32 0x2B8CBCCC#32))))
    ((broadcastInDim S20000 ![] bcast_S_S20000 : (Cf F S_) → (Cf F S20000)) (id (constant S_ .f32 0x00000000#32)))

/-- A per-node number read at every edge's end. -/
def atEnd (v : (Cf F S20000)) (x : (Ci F S640000)) : (Cf F S640000) :=
  ((fun x i => Host.gather gather_S20000_S640000x1_S640000_n_0_n_n_0_1_1 x i) :
      (Cf F S20000) → (Ci F S640000x1) → (Cf F S640000)) v (col (norm x))

/-- The symmetric normalisation of the edge weights: dis[src] · weight · dis[dst]. -/
def wsym (x1 : (Cf F S640000)) (x8 x9 : (Ci F S640000)) : (Cf F S640000) :=
  (mulf : (Cf F S640000) → (Cf F S640000) → (Cf F S640000))
    ((mulf : (Cf F S640000) → (Cf F S640000) → (Cf F S640000)) (atEnd (dis x1 x8) x8) x1) (atEnd (dis x1 x8) x9)

/-- [x | h]: the two feature tables side by side. -/
def cat (x0 x2 : (Cf F S20000x128)) : (Cf F S20000x256) :=
  ((fun a b => concatenate S20000x256 1 [⟨S20000x128, a⟩, ⟨S20000x128, b⟩] concatenates_S20000x128_S20000x128_S20000x256_d1) :
      (Cf F S20000x128) → (Cf F S20000x128) → (Cf F S20000x256)) x0 x2

/-- The propagation of [x | h] in one pass: minus the sum into each destination row of w · (source row). -/
def lap256 (x0 x2 : (Cf F S20000x128)) (w : (Cf F S640000)) (x8 x9 : (Ci F S640000)) : (Cf F S20000x256) :=
  (Host.negf : (Cf F S20000x256) → (Cf F S20000x256))
    (((fun x i u => Host.scatterAdd scatter_S20000x256_S640000x1_S640000x256_1_0_0_1 x i u) :
        (Cf F S20000x256) → (Ci F S640000x1) → (Cf F S640000x256) → (Cf F S20000x256))
      ((broadcastInDim S20000x256 ![] bcast_S_S20000x256 : (Cf F S_) → (Cf F S20000x256)) (constant S_ .f32 0x00000000#32))
      (col x9)
      ((mulf : (Cf F S640000x256) → (Cf F S640000x256) → (Cf F S640000x256))
        ((broadcastInDim S640000x256 ![0, 1] bcast_S640000x1_S640000x256_0_1 : (Cf F S640000x1) → (Cf F S640000x256))
          ((broadcastInDim S640000x1 ![0] bcast_S640000_S640000x1_0 : (Cf F S640000) → (Cf F S640000x1)) w))
        (((fun x i => Host.gather gather_S20000x256_S640000x1_S640000x256_1_0_n_n_0_1_1256 x i) :
            (Cf F S20000x256) → (Ci F S640000x1) → (Cf F S640000x256)) (cat x0 x2) (col (norm x8)))))

/-- Its x half (columns 0..127), narrowed. -/
def lapX (x0 x2 : (Cf F S20000x128)) (w : (Cf F S640000)) (x8 x9 : (Ci F S640000)) : (Cb F S20000x128) :=
  ((truncf .bf16 · bitsLt_bf16_f32) : (Cf F S20000x128) → (Cb F S20000x128))
    (((extractStridedSlice S20000x128 ![0, 0] · slices_S20000x256_S20000x128_0_0) : (Cf F S20000x256) → (Cf F S20000x128))
      (lap256 x0 x2 w x8 x9))

/-- Its h half (columns 128..255), narrowed. -/
def lapH (x0 x2 : (Cf F S20000x128)) (w : (Cf F S640000)) (x8 x9 : (Ci F S640000)) : (Cb F S20000x128) :=
  ((truncf .bf16 · bitsLt_bf16_f32) : (Cf F S20000x128) → (Cb F S20000x128))
    (((extractStridedSlice S20000x128 ![0, 128] · slices_S20000x256_S20000x128_0_128) : (Cf F S20000x256) → (Cf F S20000x128))
      (lap256 x0 x2 w x8 x9))

/-- A weight tensor [gate, order, in, out] re-laid as the matrix [order · 128 + in, gate · 128 + out]. -/
def wflat (x4 : (Cf F S4x2x128x128)) : (Cf F S256x512) :=
  shapeCast _ (((transpose S2x128x4x128 [1, 2, 0, 3] · transposes_S4x2x128x128_S2x128x4x128_1_2_0_3) :
    (Cf F S4x2x128x128) → (Cf F S2x128x4x128)) x4) shapeCasts_S2x128x4x128_S256x512

/-- Its order-0 rows, narrowed. -/
def wOrd0 (x4 : (Cf F S4x2x128x128)) : (Cb F S128x512) :=
  ((truncf .bf16 · bitsLt_bf16_f32) : (Cf F S128x512) → (Cb F S128x512))
    (((extractStridedSlice S128x512 ![0, 0] · slices_S256x512_S128x512_0_0) : (Cf F S256x512) → (Cf F S128x512)) (wflat x4))

/-- Its order-1 rows, narrowed. -/
def wOrd1 (x4 : (Cf F S4x2x128x128)) : (Cb F S128x512) :=
  ((truncf .bf16 · bitsLt_bf16_f32) : (Cf F S128x512) → (Cb F S128x512))
    (((extractStridedSlice S128x512 ![128, 0] · slices_S256x512_S128x512_128_0) : (Cf F S256x512) → (Cf F S128x512)) (wflat x4))

/-- A feature table narrowed. -/
def narrow (x : (Cf F S20000x128)) : (Cb F S20000x128) :=
  ((truncf .bf16 · bitsLt_bf16_f32) : (Cf F S20000x128) → (Cb F S20000x128)) x

variable (m : (ℓ : Loc nD τ sig) → Buf (Elt F) ℓ)

/-! ## The staged arrays, read off the host operations -/

set_option maxHeartbeats 4000000 in
set_option maxRecDepth 8192 in
theorem V_v50 (c : Dev nD) : V m c main_v50 = narrow (m ((c : Thread nD τ).loc main_arg0)) := by
  dsimp only [V]
  simp only [hostOps0, hostOps0_1, hostOps0_2, List.flatten_cons, List.flatten_nil, List.append_nil, List.cons_append, List.nil_append]
  after_results_simp <;> rfl

set_option maxHeartbeats 4000000 in
set_option maxRecDepth 8192 in
theorem V_v51 (c : Dev nD) : V m c main_v51 = narrow (m ((c : Thread nD τ).loc main_arg2)) := by
  dsimp only [V]
  simp only [hostOps0, hostOps0_1, hostOps0_2, List.flatten_cons, List.flatten_nil, List.append_nil, List.cons_append, List.nil_append]
  after_results_simp <;> rfl

set_option maxHeartbeats 4000000 in
set_option maxRecDepth 8192 in
theorem V_v52 (c : Dev nD) : V m c main_v52 = lapX (m ((c : Thread nD τ).loc main_arg0)) (m ((c : Thread nD τ).loc main_arg2))
    (wsym (m ((c : Thread nD τ).loc main_arg1)) (m ((c : Thread nD τ).loc main_arg8)) (m ((c : Thread nD τ).loc main_arg9)))
    (m ((c : Thread nD τ).loc main_arg8)) (m ((c : Thread nD τ).loc main_arg9)) := by
  dsimp only [V]
  simp only [hostOps0, hostOps0_1, hostOps0_2, List.flatten_cons, List.flatten_nil, List.append_nil, List.cons_append, List.nil_append]
  after_results_simp <;> rfl

set_option maxHeartbeats 4000000 in
set_option maxRecDepth 8192 in
theorem V_v53 (c : Dev nD) : V m c main_v53 = lapH (m ((c : Thread nD τ).loc main_arg0)) (m ((c : Thread nD τ).loc main_arg2))
    (wsym (m ((c : Thread nD τ).loc main_arg1)) (m ((c : Thread nD τ).loc main_arg8)) (m ((c : Thread nD τ).loc main_arg9)))
    (m ((c : Thread nD τ).loc main_arg8)) (m ((c : Thread nD τ).loc main_arg9)) := by
  dsimp only [V]
  simp only [hostOps0, hostOps0_1, hostOps0_2, List.flatten_cons, List.flatten_nil, List.append_nil, List.cons_append, List.nil_append]
  after_results_simp <;> rfl

set_option maxHeartbeats 4000000 in
set_option maxRecDepth 8192 in
theorem V_v54 (c : Dev nD) : V m c main_v54 = wOrd0 (m ((c : Thread nD τ).loc main_arg4)) := by
  dsimp only [V]
  simp only [hostOps0, hostOps0_1, hostOps0_2, List.flatten_cons, List.flatten_nil, List.append_nil, List.cons_append, List.nil_append]
  after_results_simp <;> rfl

set_option maxHeartbeats 4000000 in
set_option maxRecDepth 8192 in
theorem V_v55 (c : Dev nD) : V m c main_v55 = wOrd1 (m ((c : Thread nD τ).loc main_arg4)) := by
  dsimp only [V]
  simp only [hostOps0, hostOps0_1, hostOps0_2, List.flatten_cons, List.flatten_nil, List.append_nil, List.cons_append, List.nil_append]
  after_results_simp <;> rfl

set_option maxHeartbeats 4000000 in
set_option maxRecDepth 8192 in
theorem V_v56 (c : Dev nD) : V m c main_v56 = wOrd0 (m ((c : Thread nD τ).loc main_arg5)) := by
  dsimp only [V]
  simp only [hostOps0, hostOps0_1, hostOps0_2, List.flatten_cons, List.flatten_nil, List.append_nil, List.cons_append, List.nil_append]
  after_results_simp <;> rfl

set_option maxHeartbeats 4000000 in
set_option maxRecDepth 8192 in
theorem V_v57 (c : Dev nD) : V m c main_v57 = wOrd1 (m ((c : Thread nD τ).loc main_arg5)) := by
  dsimp only [V]
  simp only [hostOps0, hostOps0_1, hostOps0_2, List.flatten_cons, List.flatten_nil, List.append_nil, List.cons_append, List.nil_append]
  after_results_simp <;> rfl

end Cert.KernelIdeal.HostVal

end
-- ==== Proof.KernelHostRead.lean ====
/-
  The re-laid weight matrices read at an entry.

  A weight tensor W[gate, order, in, out] is transposed to [order, in, gate, out] and flattened to the 256 × 512
  matrix whose row is order · 128 + in and whose column is gate · 128 + out; its first 128 rows are the order-0
  weights of all four gates side by side, its last 128 rows the order-1 weights. So the order-κ matrix at
  (k, g · 128 + q) is W (g, κ, k, q). Narrowing to bf16 changes nothing on the extended reals.
-/
import proofs.«116808_j35459249996211_2_alg».proof.Proof.KernelHost
import Idealize.ShloMosaic.PureOps.Ideal
import Idealize.ShloMosaic.Lib.Pipeline.Value
import Idealize.ShloMosaic.Lib.ValueIdx

noncomputable section

namespace Cert.KernelIdeal.HostRead

open Cert.KernelIdeal Cert.KernelIdeal.Gen Cert.KernelIdeal.HostVal Idealize.ShloMosaic Idealize.ShloMosaic.ValueIdx

/-- Column gate · 128 + out of the 512 columns. -/
def gcol (g : Fin 4) (q : Fin 128) : Fin 512 := ⟨q.val + g.val * 128, by have := g.isLt; have := q.isLt; omega⟩

/-- Row order · 128 + in of the 256 rows. -/
def orow (κ : Fin 2) (k : Fin 128) : Fin 256 := ⟨κ.val * 128 + k.val, by have := κ.isLt; have := k.isLt; omega⟩

/-- The flattened matrix at (order · 128 + in, gate · 128 + out) is the tensor at (gate, order, in, out). -/
theorem wflat_apply (x4 : Cf Ideal S4x2x128x128) (κ : Fin 2) (k : Fin 128) (g : Fin 4) (q : Fin 128) :
    wflat (F := Ideal) x4 (ix2 (orow κ k) (gcol g q)) = x4 (ix4 g κ k q) := by
  unfold wflat
  refine (shapeCast_apply _ shapeCasts_S2x128x4x128_S256x512 _ (ix4 κ k g q) ?_).trans ?_
  · rewrite [Shape.rowMajor_val_four, Shape.rowMajor_val_two]
    show ((κ.val * 128 + k.val) * 4 + g.val) * 128 + q.val = (κ.val * 128 + k.val) * 512 + (q.val + g.val * 128)
    omega
  · exact transpose_apply [1, 2, 0, 3] x4 transposes_S4x2x128x128_S2x128x4x128_1_2_0_3 (ix4 κ k g q) (ix4 g κ k q)
      (fun b => match b with | ⟨0, _⟩ => rfl | ⟨1, _⟩ => rfl | ⟨2, _⟩ => rfl | ⟨3, _⟩ => rfl)

/-- The order-0 matrix at (in, gate · 128 + out). -/
theorem wOrd0_apply (x4 : Cf Ideal S4x2x128x128) (g : Fin 4) (k q : Fin 128) :
    wOrd0 (F := Ideal) x4 (ix2 k (gcol g q)) = x4 (ix4 g (0 : Fin 2) k q) := by
  unfold wOrd0
  dsimp only
  refine (truncf_apply _ bitsLt_bf16_f32 _).trans ?_
  rw [← wflat_apply x4 0 k g q]
  generalize wflat (F := Ideal) x4 = y
  refine extractStridedSlice_apply ![0, 0] y slices_S256x512_S128x512_0_0 (ix2 k (gcol g q))
    (ix2 (orow 0 k) (gcol g q)) ?_
  intro a
  match a with
  | ⟨0, _⟩ => show (0 : Fin 2).val * 128 + k.val = 0 + k.val; simp
  | ⟨1, _⟩ => show q.val + g.val * 128 = 0 + (q.val + g.val * 128); omega

/-- The order-1 matrix at (in, gate · 128 + out). -/
theorem wOrd1_apply (x4 : Cf Ideal S4x2x128x128) (g : Fin 4) (k q : Fin 128) :
    wOrd1 (F := Ideal) x4 (ix2 k (gcol g q)) = x4 (ix4 g (1 : Fin 2) k q) := by
  unfold wOrd1
  dsimp only
  refine (truncf_apply _ bitsLt_bf16_f32 _).trans ?_
  rw [← wflat_apply x4 1 k g q]
  generalize wflat (F := Ideal) x4 = y
  refine extractStridedSlice_apply ![128, 0] y slices_S256x512_S128x512_128_0 (ix2 k (gcol g q))
    (ix2 (orow 1 k) (gcol g q)) ?_
  intro a
  match a with
  | ⟨0, _⟩ => show (1 : Fin 2).val * 128 + k.val = 128 + k.val; simp
  | ⟨1, _⟩ => show q.val + g.val * 128 = 0 + (q.val + g.val * 128); omega

end Cert.KernelIdeal.HostRead

end
-- ==== Proof.KernelBlocks.lean ====
/-
  The kernel's ten grid points and what its windows show it.

  Point t of the grid handles rows t · 2000 … t · 2000 + 1999 of every row-blocked array (x, h, their propagated
  versions, the old cell state and the two results) and sees the four weight matrices, the peephole rows and the
  bias rows whole. This module names the arrays the cell is a function of, decides the windows' index maps over the
  ten points, and reads each input window's block at an entry as an entry of its whole array.
-/
import proofs.«116808_j35459249996211_2_alg».proof.Proof.Gen.KernelIdeal.Value
import proofs.«116808_j35459249996211_2_alg».proof.Proof.KernelHost
import proofs.«116808_j35459249996211_2_alg».proof.Proof.KernelHostRead
import proofs.«116808_j35459249996211_2_alg».proof.Proof.Spec
import Idealize.ShloMosaic.PureOps.Ideal
import Idealize.ShloMosaic.Lib.Pipeline.Value
import Idealize.ShloMosaic.Lib.ValueIdx

set_option maxRecDepth 16384

noncomputable section

namespace Cert.KernelIdeal.ValueH

open Cert.KernelIdeal Cert.KernelIdeal.Gen Idealize.ShloMosaic Idealize.ShloMosaic.TcCoe Idealize.SL.Sem
open Idealize.ShloMosaic.ValueIdx Cert.GateSpec
open Idealize.ShloMosaic.Pipeline (Dat)

variable (m : (ℓ : Loc nD τ sig) → Buf (Elt Ideal) ℓ) (ρ : Dev nD → PrngReg)

/-! ## The argument arrays, and the spec arrays -/

abbrev A0 (c : Dev nD) : Act := m ((c : Thread nD τ).loc main_arg0)
abbrev A2 (c : Dev nD) : Act := m ((c : Thread nD τ).loc main_arg2)
abbrev A3 (c : Dev nD) : Act := m ((c : Thread nD τ).loc main_arg3)
abbrev A4 (c : Dev nD) : Wts := m ((c : Thread nD τ).loc main_arg4)
abbrev A5 (c : Dev nD) : Wts := m ((c : Thread nD τ).loc main_arg5)
abbrev A6 (c : Dev nD) : (⟨2, ![4, 128]⟩ : Shape).Idx → EReal := m ((c : Thread nD τ).loc main_arg6)
abbrev A7 (c : Dev nD) : (⟨2, ![3, 128]⟩ : Shape).Idx → EReal := m ((c : Thread nD τ).loc main_arg7)

/-- The propagated x, as the host's one-pass propagation leaves it. -/
def LXk (c : Dev nD) : Act :=
  HostVal.lapX (F := Ideal) (m ((c : Thread nD τ).loc main_arg0)) (m ((c : Thread nD τ).loc main_arg2)) (HostVal.wsym (m ((c : Thread nD τ).loc main_arg1)) (m ((c : Thread nD τ).loc main_arg8)) (m ((c : Thread nD τ).loc main_arg9))) (m ((c : Thread nD τ).loc main_arg8)) (m ((c : Thread nD τ).loc main_arg9))
/-- The propagated h, likewise. -/
def LHk (c : Dev nD) : Act :=
  HostVal.lapH (F := Ideal) (m ((c : Thread nD τ).loc main_arg0)) (m ((c : Thread nD τ).loc main_arg2)) (HostVal.wsym (m ((c : Thread nD τ).loc main_arg1)) (m ((c : Thread nD τ).loc main_arg8)) (m ((c : Thread nD τ).loc main_arg9))) (m ((c : Thread nD τ).loc main_arg8)) (m ((c : Thread nD τ).loc main_arg9))

/-- The new cell state as one array. -/
def GC (c : Dev nD) : S20000x128.Idx → EReal := fun i => cNew (A0 m c) (LXk m c) (A2 m c) (LHk m c) (A3 m c) (A4 m c) (A5 m c) (A7 m c) (A6 m c) (i 0) (i 1)
/-- The new hidden state as one array. -/
def GH (c : Dev nD) : S20000x128.Idx → EReal := fun i => hNew (A0 m c) (LXk m c) (A2 m c) (LHk m c) (A3 m c) (A4 m c) (A5 m c) (A7 m c) (A6 m c) (i 0) (i 1)

theorem hz : (![0, 0] : Fin 2 → Nat) = fun _ => 0 := funext fun a => by fin_cases a <;> rfl

/-- Row t · 2000 + p of the 20000. -/
def rowOf (t : Fin cfg0.N) (p : Fin 2000) : Fin 20000 :=
  ⟨t.val * 2000 + p.val, by have ht : t.val < 10 := t.isLt; have := p.isLt; omega⟩

/-- The printed index maps, decided over the ten points: a row-blocked window is at block t, the others at block 0. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-! ## The staged arrays by window number

Window w stages the array of the buffer the launch names for it; that buffer is a fixed one of the program's, so the
array the region finds there is the one read off the host operations for that buffer. -/

/-- The array found at a buffer depends on the buffer only. -/
theorem V_at (c : Dev nD) (b b' : Ref sig .tc) (h : b = b') : HEq (V m c b) (V m c b') := by
  subst h; rfl

/-- Narrowing a table to bf16 changes no entry on the extended reals. -/
theorem narrow_apply (x : Act) (i : S20000x128.Idx) : HostVal.narrow (F := Ideal) x i = x i := rfl

/-- Window 0 stages x, narrowed. -/
theorem Vat0 (c : Dev nD) : V m c (Pipeline.arrRef spec0 0) = HostVal.narrow (F := Ideal) (A0 m c) :=
  (eq_of_heq (V_at m c _ _ (rfl : Pipeline.arrRef spec0 0 = main_v50))).trans (HostVal.V_v50 m c)

/-- Window 1 stages the propagated x. -/
theorem Vat1 (c : Dev nD) : V m c (Pipeline.arrRef spec0 1) = LXk m c :=
  (eq_of_heq (V_at m c _ _ (rfl : Pipeline.arrRef spec0 1 = main_v52))).trans (HostVal.V_v52 m c)

/-- Window 2 stages h, narrowed. -/
theorem Vat2 (c : Dev nD) : V m c (Pipeline.arrRef spec0 2) = HostVal.narrow (F := Ideal) (A2 m c) :=
  (eq_of_heq (V_at m c _ _ (rfl : Pipeline.arrRef spec0 2 = main_v51))).trans (HostVal.V_v51 m c)

/-- Window 3 stages the propagated h. -/
theorem Vat3 (c : Dev nD) : V m c (Pipeline.arrRef spec0 3) = LHk m c :=
  (eq_of_heq (V_at m c _ _ (rfl : Pipeline.arrRef spec0 3 = main_v53))).trans (HostVal.V_v53 m c)

/-- Window 4 stages the old cell state. -/
theorem Vat4 (c : Dev nD) : V m c (Pipeline.arrRef spec0 4) = A3 m c :=
  (eq_of_heq (V_at m c _ _ (rfl : Pipeline.arrRef spec0 4 = main_arg3))).trans (V_main_arg3 m c)

/-- Window 5 stages the order-0 x-weights. -/
theorem Vat5 (c : Dev nD) : V m c (Pipeline.arrRef spec0 5) = HostVal.wOrd0 (F := Ideal) (A4 m c) :=
  (eq_of_heq (V_at m c _ _ (rfl : Pipeline.arrRef spec0 5 = main_v54))).trans (HostVal.V_v54 m c)

/-- Window 6 stages the order-1 x-weights. -/
theorem Vat6 (c : Dev nD) : V m c (Pipeline.arrRef spec0 6) = HostVal.wOrd1 (F := Ideal) (A4 m c) :=
  (eq_of_heq (V_at m c _ _ (rfl : Pipeline.arrRef spec0 6 = main_v55))).trans (HostVal.V_v55 m c)

/-- Window 7 stages the order-0 h-weights. -/
theorem Vat7 (c : Dev nD) : V m c (Pipeline.arrRef spec0 7) = HostVal.wOrd0 (F := Ideal) (A5 m c) :=
  (eq_of_heq (V_at m c _ _ (rfl : Pipeline.arrRef spec0 7 = main_v56))).trans (HostVal.V_v56 m c)

/-- Window 8 stages the order-1 h-weights. -/
theorem Vat8 (c : Dev nD) : V m c (Pipeline.arrRef spec0 8) = HostVal.wOrd1 (F := Ideal) (A5 m c) :=
  (eq_of_heq (V_at m c _ _ (rfl : Pipeline.arrRef spec0 8 = main_v57))).trans (HostVal.V_v57 m c)

/-- Window 9 stages the peephole rows. -/
theorem Vat9 (c : Dev nD) : V m c (Pipeline.arrRef spec0 9) = A7 m c :=
  (eq_of_heq (V_at m c _ _ (rfl : Pipeline.arrRef spec0 9 = main_arg7))).trans (V_main_arg7 m c)

/-- Window 10 stages the bias rows. -/
theorem Vat10 (c : Dev nD) : V m c (Pipeline.arrRef spec0 10) = A6 m c :=
  (eq_of_heq (V_at m c _ _ (rfl : Pipeline.arrRef spec0 10 = main_arg6))).trans (V_main_arg6 m c)

/-! ## The input windows' blocks read at an entry

Each reading is first made of an arbitrary array in the window's place — a block's entry (p, k) at point t is the
array's entry at (index · size + p, k) on each axis — and then of the staged array. -/

/-- A row-blocked array read through window 0: entry (p, k) of block t is row t · 2000 + p. -/
theorem rd0 (c : Dev nD) (X : Buf (Elt Ideal) ((c : Thread nD τ).loc (Pipeline.arrRef spec0 0))) (t : Fin cfg0.N) (p : Fin 2000) (k : Fin 128) :
    ((cfg0.win 0).blk t).view.read (Elt Ideal) X (ix2 p k) = X (ix2 (rowOf t p) k) := by
  obtain ⟨ea, eb⟩ := idx0 t
  show X (((cfg0.win 0).blk t).view.emb (ix2 p k)) = _
  refine congrArg X (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- Window 0's block at point t, entry (p, k): row t · 2000 + p of x, narrowed. -/
theorem blk0_apply (c : Dev nD) (t : Fin cfg0.N) (p : Fin 2000) (k : Fin 128) :
    iblk m c 0 t (ix2 p k) = A0 m c (ix2 (rowOf t p) k) :=
  (rd0 c (V m c (Pipeline.arrRef spec0 0)) t p k).trans ((congrFun (Vat0 m c) _).trans (narrow_apply _ _))

/-- A row-blocked array read through window 1: entry (p, k) of block t is row t · 2000 + p. -/
theorem rd1 (c : Dev nD) (X : Buf (Elt Ideal) ((c : Thread nD τ).loc (Pipeline.arrRef spec0 1))) (t : Fin cfg0.N) (p : Fin 2000) (k : Fin 128) :
    ((cfg0.win 1).blk t).view.read (Elt Ideal) X (ix2 p k) = X (ix2 (rowOf t p) k) := by
  obtain ⟨ea, eb⟩ := idx1 t
  show X (((cfg0.win 1).blk t).view.emb (ix2 p k)) = _
  refine congrArg X (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- Window 1's block at point t, entry (p, k): row t · 2000 + p of the propagated x. -/
theorem blk1_apply (c : Dev nD) (t : Fin cfg0.N) (p : Fin 2000) (k : Fin 128) :
    iblk m c 1 t (ix2 p k) = LXk m c (ix2 (rowOf t p) k) :=
  (rd1 c (V m c (Pipeline.arrRef spec0 1)) t p k).trans (congrFun (Vat1 m c) _)

/-- A row-blocked array read through window 2: entry (p, k) of block t is row t · 2000 + p. -/
theorem rd2 (c : Dev nD) (X : Buf (Elt Ideal) ((c : Thread nD τ).loc (Pipeline.arrRef spec0 2))) (t : Fin cfg0.N) (p : Fin 2000) (k : Fin 128) :
    ((cfg0.win 2).blk t).view.read (Elt Ideal) X (ix2 p k) = X (ix2 (rowOf t p) k) := by
  obtain ⟨ea, eb⟩ := idx2 t
  show X (((cfg0.win 2).blk t).view.emb (ix2 p k)) = _
  refine congrArg X (funext fun a => Fin.ext ?_)
  match a with
  | ⟨0, _⟩ => show win0_2.index t (0 : Fin 2) * 2000 + 1 * p.val = t.val * 2000 + p.val; omega
  | ⟨1, _⟩ => show win0_2.index t (1 : Fin 2) * 128 + 1 * k.val = k.val; omega

/-- Window 2's block at point t, entry (p, k): row t · 2000 + p of h, narrowed. -/
theorem blk2_apply (c : Dev nD) (t : Fin cfg0.N) (p : Fin 2000) (k : Fin 128) :
    iblk m c 2 t (ix2 p k) = A2 m c (ix2 (rowOf t p) k) :=
  (rd2 c (V m c (Pipeline.arrRef spec0 2)) t p k).trans ((congrFun (Vat2 m c) _).trans (narrow_apply _ _))

/-- A row-blocked array read through window 3: entry (p, k) of block t is row t · 2000 + p. -/
theorem rd3 (c : Dev nD) (X : Buf (Elt Ideal) ((c : Thread nD τ).loc (Pipeline.arrRef spec0 3))) (t : Fin cfg0.N) (p : Fin 2000) (k : Fin 128) :
    ((cfg0.win 3).blk t).view.read (Elt Ideal) X (ix2 p k) = X (ix2 (rowOf t p) k) := by
  obtain ⟨ea, eb⟩ := idx3 t
  show X (((cfg0.win 3).blk t).view.emb (ix2 p k)) = _
  refine congrArg X (funext fun a => Fin.ext ?_)
  match a with
  | ⟨0, _⟩ => show win0_3.index t (0 : Fin 2) * 2000 + 1 * p.val = t.val * 2000 + p.val; omega
  | ⟨1, _⟩ => show win0_3.index t (1 : Fin 2) * 128 + 1 * k.val = k.val; omega

/-- Window 3's block at point t, entry (p, k): row t · 2000 + p of the propagated h. -/
theorem blk3_apply (c : Dev nD) (t : Fin cfg0.N) (p : Fin 2000) (k : Fin 128) :
    iblk m c 3 t (ix2 p k) = LHk m c (ix2 (rowOf t p) k) :=
  (rd3 c (V m c (Pipeline.arrRef spec0 3)) t p k).trans (congrFun (Vat3 m c) _)

/-- A row-blocked array read through window 4: entry (p, k) of block t is row t · 2000 + p. -/
theorem rd4 (c : Dev nD) (X : Buf (Elt Ideal) ((c : Thread nD τ).loc (Pipeline.arrRef spec0 4))) (t : Fin cfg0.N) (p : Fin 2000) (k : Fin 128) :
    ((cfg0.win 4).blk t).view.read (Elt Ideal) X (ix2 p k) = X (ix2 (rowOf t p) k) := by
  obtain ⟨ea, eb⟩ := idx4 t
  show X (((cfg0.win 4).blk t).view.emb (ix2 p k)) = _
  refine congrArg X (funext fun a => Fin.ext ?_)
  match a with
  | ⟨0, _⟩ => show win0_4.index t (0 : Fin 2) * 2000 + 1 * p.val = t.val * 2000 + p.val; omega
  | ⟨1, _⟩ => show win0_4.index t (1 : Fin 2) * 128 + 1 * k.val = k.val; omega

/-- Window 4's block at point t, entry (p, k): row t · 2000 + p of the old cell state. -/
theorem blk4_apply (c : Dev nD) (t : Fin cfg0.N) (p : Fin 2000) (k : Fin 128) :
    iblk m c 4 t (ix2 p k) = A3 m c (ix2 (rowOf t p) k) :=
  (rd4 c (V m c (Pipeline.arrRef spec0 4)) t p k).trans (congrFun (Vat4 m c) _)

/-- An array read through window 5, whose block is the whole array at every point. -/
theorem rd5 (c : Dev nD) (X : Buf (Elt Ideal) ((c : Thread nD τ).loc (Pipeline.arrRef spec0 5))) (t : Fin cfg0.N) (a : Fin 128) (b : Fin 512) :
    ((cfg0.win 5).blk t).view.read (Elt Ideal) X (ix2 a b) = X (ix2 a b) := by
  obtain ⟨ea, eb⟩ := idx5 t
  show X (((cfg0.win 5).blk t).view.emb (ix2 a b)) = _
  refine congrArg X (funext fun d => Fin.ext ?_)
  match d with
  | ⟨0, _⟩ => show win0_5.index t (0 : Fin 2) * 128 + 1 * a.val = a.val; omega
  | ⟨1, _⟩ => show win0_5.index t (1 : Fin 2) * 512 + 1 * b.val = b.val; omega

/-- Window 5's block at every point is the order-0 x-weights, whole. -/
theorem blk5_apply (c : Dev nD) (t : Fin cfg0.N) (a : Fin 128) (b : Fin 512) :
    iblk m c 5 t (ix2 a b) = HostVal.wOrd0 (F := Ideal) (A4 m c) (ix2 a b) :=
  (rd5 c (V m c (Pipeline.arrRef spec0 5)) t a b).trans (congrFun (Vat5 m c) _)

/-- An array read through window 6, whose block is the whole array at every point. -/
theorem rd6 (c : Dev nD) (X : Buf (Elt Ideal) ((c : Thread nD τ).loc (Pipeline.arrRef spec0 6))) (t : Fin cfg0.N) (a : Fin 128) (b : Fin 512) :
    ((cfg0.win 6).blk t).view.read (Elt Ideal) X (ix2 a b) = X (ix2 a b) := by
  obtain ⟨ea, eb⟩ := idx6 t
  show X (((cfg0.win 6).blk t).view.emb (ix2 a b)) = _
  refine congrArg X (funext fun d => Fin.ext ?_)
  match d with
  | ⟨0, _⟩ => show win0_6.index t (0 : Fin 2) * 128 + 1 * a.val = a.val; omega
  | ⟨1, _⟩ => show win0_6.index t (1 : Fin 2) * 512 + 1 * b.val = b.val; omega

/-- Window 6's block at every point is the order-1 x-weights, whole. -/
theorem blk6_apply (c : Dev nD) (t : Fin cfg0.N) (a : Fin 128) (b : Fin 512) :
    iblk m c 6 t (ix2 a b) = HostVal.wOrd1 (F := Ideal) (A4 m c) (ix2 a b) :=
  (rd6 c (V m c (Pipeline.arrRef spec0 6)) t a b).trans (congrFun (Vat6 m c) _)

/-- An array read through window 7, whose block is the whole array at every point. -/
theorem rd7 (c : Dev nD) (X : Buf (Elt Ideal) ((c : Thread nD τ).loc (Pipeline.arrRef spec0 7))) (t : Fin cfg0.N) (a : Fin 128) (b : Fin 512) :
    ((cfg0.win 7).blk t).view.read (Elt Ideal) X (ix2 a b) = X (ix2 a b) := by
  obtain ⟨ea, eb⟩ := idx7 t
  show X (((cfg0.win 7).blk t).view.emb (ix2 a b)) = _
  refine congrArg X (funext fun d => Fin.ext ?_)
  match d with
  | ⟨0, _⟩ => show win0_7.index t (0 : Fin 2) * 128 + 1 * a.val = a.val; omega
  | ⟨1, _⟩ => show win0_7.index t (1 : Fin 2) * 512 + 1 * b.val = b.val; omega

/-- Window 7's block at every point is the order-0 h-weights, whole. -/
theorem blk7_apply (c : Dev nD) (t : Fin cfg0.N) (a : Fin 128) (b : Fin 512) :
    iblk m c 7 t (ix2 a b) = HostVal.wOrd0 (F := Ideal) (A5 m c) (ix2 a b) :=
  (rd7 c (V m c (Pipeline.arrRef spec0 7)) t a b).trans (congrFun (Vat7 m c) _)

/-- An array read through window 8, whose block is the whole array at every point. -/
theorem rd8 (c : Dev nD) (X : Buf (Elt Ideal) ((c : Thread nD τ).loc (Pipeline.arrRef spec0 8))) (t : Fin cfg0.N) (a : Fin 128) (b : Fin 512) :
    ((cfg0.win 8).blk t).view.read (Elt Ideal) X (ix2 a b) = X (ix2 a b) := by
  obtain ⟨ea, eb⟩ := idx8 t
  show X (((cfg0.win 8).blk t).view.emb (ix2 a b)) = _
  refine congrArg X (funext fun d => Fin.ext ?_)
  match d with
  | ⟨0, _⟩ => show win0_8.index t (0 : Fin 2) * 128 + 1 * a.val = a.val; omega
  | ⟨1, _⟩ => show win0_8.index t (1 : Fin 2) * 512 + 1 * b.val = b.val; omega

/-- Window 8's block at every point is the order-1 h-weights, whole. -/
theorem blk8_apply (c : Dev nD) (t : Fin cfg0.N) (a : Fin 128) (b : Fin 512) :
    iblk m c 8 t (ix2 a b) = HostVal.wOrd1 (F := Ideal) (A5 m c) (ix2 a b) :=
  (rd8 c (V m c (Pipeline.arrRef spec0 8)) t a b).trans (congrFun (Vat8 m c) _)

/-- An array read through window 9, whose block is the whole array at every point. -/
theorem rd9 (c : Dev nD) (X : Buf (Elt Ideal) ((c : Thread nD τ).loc (Pipeline.arrRef spec0 9))) (t : Fin cfg0.N) (a : Fin 3) (b : Fin 128) :
    ((cfg0.win 9).blk t).view.read (Elt Ideal) X (ix2 a b) = X (ix2 a b) := by
  obtain ⟨ea, eb⟩ := idx9 t
  show X (((cfg0.win 9).blk t).view.emb (ix2 a b)) = _
  refine congrArg X (funext fun d => Fin.ext ?_)
  match d with
  | ⟨0, _⟩ => show win0_9.index t (0 : Fin 2) * 3 + 1 * a.val = a.val; omega
  | ⟨1, _⟩ => show win0_9.index t (1 : Fin 2) * 128 + 1 * b.val = b.val; omega

/-- Window 9's block at every point is the peephole rows, whole. -/
theorem blk9_apply (c : Dev nD) (t : Fin cfg0.N) (a : Fin 3) (b : Fin 128) :
    iblk m c 9 t (ix2 a b) = A7 m c (ix2 a b) :=
  (rd9 c (V m c (Pipeline.arrRef spec0 9)) t a b).trans (congrFun (Vat9 m c) _)

/-- An array read through window 10, whose block is the whole array at every point. -/
theorem rd10 (c : Dev nD) (X : Buf (Elt Ideal) ((c : Thread nD τ).loc (Pipeline.arrRef spec0 10))) (t : Fin cfg0.N) (a : Fin 4) (b : Fin 128) :
    ((cfg0.win 10).blk t).view.read (Elt Ideal) X (ix2 a b) = X (ix2 a b) := by
  obtain ⟨ea, eb⟩ := idx10 t
  show X (((cfg0.win 10).blk t).view.emb (ix2 a b)) = _
  refine congrArg X (funext fun d => Fin.ext ?_)
  match d with
  | ⟨0, _⟩ => show win0_10.index t (0 : Fin 2) * 4 + 1 * a.val = a.val; omega
  | ⟨1, _⟩ => show win0_10.index t (1 : Fin 2) * 128 + 1 * b.val = b.val; omega

/-- Window 10's block at every point is the bias rows, whole. -/
theorem blk10_apply (c : Dev nD) (t : Fin cfg0.N) (a : Fin 4) (b : Fin 128) :
    iblk m c 10 t (ix2 a b) = A6 m c (ix2 a b) :=
  (rd10 c (V m c (Pipeline.arrRef spec0 10)) t a b).trans (congrFun (Vat10 m c) _)

end Cert.KernelIdeal.ValueH

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.KernelBlock.lean ====
/-
  One entry of what the kernel body leaves in its two output blocks, on the extended reals.

  The body multiplies its 2000-row block of x by the order-0 weight matrix and its block of the propagated x by
  the order-1 matrix (both 128 × 512: the four gates' columns side by side), adds the two products, does the same
  for h, and cuts the 512 columns into the four gates. Entry (p, g · 128 + q) of such a pair of products is the
  sum over k of block (p, k) · W (g, 0, k, q) plus the sum over k of propagated block (p, k) · W (g, 1, k, q): one
  Chebyshev branch of gate g at output feature q. The rest of the body is the gate arithmetic entry by entry, in the
  grouping the cell's definition uses. So, whatever arrays the blocks are rows of, the stored entry (p, q) of the
  cell-state block is the cell's c' and that of the hidden-state block its h'.
-/
import proofs.«116808_j35459249996211_2_alg».proof.Proof.Gen.KernelIdeal.Value
import proofs.«116808_j35459249996211_2_alg».proof.Proof.LibPlainMatmul
import proofs.«116808_j35459249996211_2_alg».proof.Proof.Spec
import Idealize.ShloMosaic.PureOps.Ideal.Laws
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.ValueIdx Cert.GateSpec

/-- Column gate · 128 + out of the 512 columns of a weight matrix. -/
def gcol (g : Fin 4) (q : Fin 128) : Fin 512 := ⟨q.val + g.val * 128, by have := g.isLt; have := q.isLt; omega⟩

/-- A rank-2 index with given coordinates. -/
theorem eq_ix2_of {n0 n1 : Nat} (i : (⟨2, ![n0, n1]⟩ : Shape).Idx) (a : Fin n0) (b : Fin n1)
    (h0 : (i 0).val = a.val) (h1 : (i 1).val = b.val) : i = ix2 a b :=
  funext fun d => Fin.ext (match d with | ⟨0, _⟩ => h0 | ⟨1, _⟩ => h1)

/-- The x-branch pair of products at (p, col): two plain sums over the 128 input features. -/
theorem pay1_apply (P0 : Vec Ideal S2000x128 .bf16) (P1 : Vec Ideal S128x512 .bf16) (P2 : Vec Ideal S2000x128 .bf16)
    (P3 : Vec Ideal S128x512 .bf16) (p : Fin 2000) (col : Fin 512) :
    k0_pay1 (F := Ideal) P0 P1 P2 P3 (ix2 p col)
      = (∑ k : Fin 128, P0 (ix2 p k) * P1 (ix2 k col)) + (∑ k : Fin 128, P2 (ix2 p k) * P3 (ix2 k col)) := by
  unfold k0_pay1
  simp only [shapeCast_self]
  exact congrArg₂ (· + ·) (Cert.PlainMatmul.matmul_zero_apply 2000 128 512 none P0 P1 p col)
    (Cert.PlainMatmul.matmul_zero_apply 2000 128 512 none P2 P3 p col)

/-- The h-branch pair of products at (p, col). -/
theorem pay2_apply (P4 : Vec Ideal S2000x128 .bf16) (P5 : Vec Ideal S128x512 .bf16) (P6 : Vec Ideal S2000x128 .bf16)
    (P7 : Vec Ideal S128x512 .bf16) (p : Fin 2000) (col : Fin 512) :
    k0_pay2 (F := Ideal) P4 P5 P6 P7 (ix2 p col)
      = (∑ k : Fin 128, P4 (ix2 p k) * P5 (ix2 k col)) + (∑ k : Fin 128, P6 (ix2 p k) * P7 (ix2 k col)) := by
  unfold k0_pay2
  simp only [shapeCast_self]
  exact congrArg₂ (· + ·) (Cert.PlainMatmul.matmul_zero_apply 2000 128 512 none P4 P5 p col)
    (Cert.PlainMatmul.matmul_zero_apply 2000 128 512 none P6 P7 p col)

/-- When the blocks are row r of x and of the propagated x, and the matrices hold W (g, 0, ·, q) and W (g, 1, ·, q)
    in column g · 128 + q, the x-branch pair of products at (p, g · 128 + q) is gate g's Chebyshev branch at (r, q). -/
theorem pay1_cheb (P0 : Vec Ideal S2000x128 .bf16) (P1 : Vec Ideal S128x512 .bf16) (P2 : Vec Ideal S2000x128 .bf16)
    (P3 : Vec Ideal S128x512 .bf16) (x Lx : Act) (W : Wts) (g : Fin 4) (r : Fin 20000) (p : Fin 2000) (q : Fin 128)
    (i : S2000x512.Idx) (hi0 : (i 0).val = p.val) (hi1 : (i 1).val = q.val + g.val * 128)
    (hx : ∀ k : Fin 128, P0 (ix2 p k) = x (ix2 r k)) (hL : ∀ k : Fin 128, P2 (ix2 p k) = Lx (ix2 r k))
    (hW0 : ∀ k : Fin 128, P1 (ix2 k (gcol g q)) = W (ix4 g (0 : Fin 2) k q))
    (hW1 : ∀ k : Fin 128, P3 (ix2 k (gcol g q)) = W (ix4 g (1 : Fin 2) k q)) :
    k0_pay1 (F := Ideal) P0 P1 P2 P3 i = cheb x Lx W g r q := by
  obtain rfl : i = ix2 p (gcol g q) := eq_ix2_of i p (gcol g q) hi0 hi1
  rw [pay1_apply]
  unfold cheb
  simp only [hx, hL, hW0, hW1]

/-- The same for the h branch. -/
theorem pay2_cheb (P4 : Vec Ideal S2000x128 .bf16) (P5 : Vec Ideal S128x512 .bf16) (P6 : Vec Ideal S2000x128 .bf16)
    (P7 : Vec Ideal S128x512 .bf16) (x Lx : Act) (W : Wts) (g : Fin 4) (r : Fin 20000) (p : Fin 2000) (q : Fin 128)
    (i : S2000x512.Idx) (hi0 : (i 0).val = p.val) (hi1 : (i 1).val = q.val + g.val * 128)
    (hx : ∀ k : Fin 128, P4 (ix2 p k) = x (ix2 r k)) (hL : ∀ k : Fin 128, P6 (ix2 p k) = Lx (ix2 r k))
    (hW0 : ∀ k : Fin 128, P5 (ix2 k (gcol g q)) = W (ix4 g (0 : Fin 2) k q))
    (hW1 : ∀ k : Fin 128, P7 (ix2 k (gcol g q)) = W (ix4 g (1 : Fin 2) k q)) :
    k0_pay2 (F := Ideal) P4 P5 P6 P7 i = cheb x Lx W g r q := by
  obtain rfl : i = ix2 p (gcol g q) := eq_ix2_of i p (gcol g q) hi0 hi1
  rw [pay2_apply]
  unfold cheb
  simp only [hx, hL, hW0, hW1]

/-- The peephole rows, read at an index with given coordinates. -/
theorem rd_wc (P8 : Vec Ideal S3x128 .f32) (wc : (⟨2, ![3, 128]⟩ : Shape).Idx → EReal)
    (hwc : ∀ (g : Fin 3) (j : Fin 128), P8 (ix2 g j) = wc (ix2 g j))
    (i : S3x128.Idx) (g : Fin 3) (q : Fin 128) (h0 : (i 0).val = g.val) (h1 : (i 1).val = q.val) :
    P8 i = wc (ix2 g q) := by
  obtain rfl : i = ix2 g q := eq_ix2_of i g q h0 h1
  exact hwc g q

/-- The bias rows, read at an index with given coordinates. -/
theorem rd_b (P10 : Vec Ideal S4x128 .f32) (b : (⟨2, ![4, 128]⟩ : Shape).Idx → EReal)
    (hb : ∀ (g : Fin 4) (j : Fin 128), P10 (ix2 g j) = b (ix2 g j))
    (i : S4x128.Idx) (g : Fin 4) (q : Fin 128) (h0 : (i 0).val = g.val) (h1 : (i 1).val = q.val) :
    P10 i = b (ix2 g q) := by
  obtain rfl : i = ix2 g q := eq_ix2_of i g q h0 h1
  exact hb g q

/-- The old cell state's block, read at an index with given coordinates. -/
theorem rd_c (P9 : Vec Ideal S2000x128 .f32) (c : Act) (r : Fin 20000) (p : Fin 2000) (q : Fin 128)
    (hc : P9 (ix2 p q) = c (ix2 r q)) (i : S2000x128.Idx) (h0 : (i 0).val = p.val) (h1 : (i 1).val = q.val) :
    P9 i = c (ix2 r q) := by
  obtain rfl : i = ix2 p q := eq_ix2_of i p q h0 h1
  exact hc

/-- THE CELL-STATE BLOCK at (p, q) is the cell's new state c' at (r, q). -/
theorem E12_eq
    (P0 : Vec Ideal S2000x128 .bf16) (P1 : Vec Ideal S128x512 .bf16) (P2 : Vec Ideal S2000x128 .bf16) (P3 : Vec Ideal S128x512 .bf16)
    (P4 : Vec Ideal S2000x128 .bf16) (P5 : Vec Ideal S128x512 .bf16) (P6 : Vec Ideal S2000x128 .bf16) (P7 : Vec Ideal S128x512 .bf16)
    (P8 : Vec Ideal S3x128 .f32) (P9 : Vec Ideal S2000x128 .f32) (P10 : Vec Ideal S4x128 .f32)
    (x Lx h Lh c : Act) (Wx Wh : Wts) (wc : (⟨2, ![3, 128]⟩ : Shape).Idx → EReal) (b : (⟨2, ![4, 128]⟩ : Shape).Idx → EReal)
    (r : Fin 20000) (p : Fin 2000) (q : Fin 128)
    (hx : ∀ k : Fin 128, P0 (ix2 p k) = x (ix2 r k)) (hLx : ∀ k : Fin 128, P2 (ix2 p k) = Lx (ix2 r k))
    (hh : ∀ k : Fin 128, P4 (ix2 p k) = h (ix2 r k)) (hLh : ∀ k : Fin 128, P6 (ix2 p k) = Lh (ix2 r k))
    (hWx0 : ∀ (g : Fin 4) (k : Fin 128), P1 (ix2 k (gcol g q)) = Wx (ix4 g (0 : Fin 2) k q))
    (hWx1 : ∀ (g : Fin 4) (k : Fin 128), P3 (ix2 k (gcol g q)) = Wx (ix4 g (1 : Fin 2) k q))
    (hWh0 : ∀ (g : Fin 4) (k : Fin 128), P5 (ix2 k (gcol g q)) = Wh (ix4 g (0 : Fin 2) k q))
    (hWh1 : ∀ (g : Fin 4) (k : Fin 128), P7 (ix2 k (gcol g q)) = Wh (ix4 g (1 : Fin 2) k q))
    (hwc : ∀ (g : Fin 3) (j : Fin 128), P8 (ix2 g j) = wc (ix2 g j))
    (hc : P9 (ix2 p q) = c (ix2 r q))
    (hb : ∀ (g : Fin 4) (j : Fin 128), P10 (ix2 g j) = b (ix2 g j)) :
    Value.E12 (F := Ideal) P0 P1 P2 P3 P4 P5 P6 P7 P8 P9 P10 (ix2 p q) = cNew x Lx h Lh c Wx Wh wc b r q := by
  dsimp only [Value.E12]
  rw [pay1_cheb P0 P1 P2 P3 x Lx Wx 1 r p q (Value.ix12_0 (ix2 p q)) rfl rfl hx hLx (hWx0 1) (hWx1 1),
    pay2_cheb P4 P5 P6 P7 h Lh Wh 1 r p q (Value.ix12_1 (ix2 p q)) rfl rfl hh hLh (hWh0 1) (hWh1 1),
    rd_wc P8 wc hwc (Value.ix12_2 (ix2 p q)) 1 q rfl rfl,
    rd_c P9 c r p q hc (Value.ix12_3 (ix2 p q)) rfl rfl,
    rd_b P10 b hb (Value.ix12_4 (ix2 p q)) 1 q rfl rfl,
    pay1_cheb P0 P1 P2 P3 x Lx Wx 0 r p q (Value.ix12_6 (ix2 p q)) rfl rfl hx hLx (hWx0 0) (hWx1 0),
    pay2_cheb P4 P5 P6 P7 h Lh Wh 0 r p q (Value.ix12_7 (ix2 p q)) rfl rfl hh hLh (hWh0 0) (hWh1 0),
    rd_wc P8 wc hwc (Value.ix12_8 (ix2 p q)) 0 q rfl rfl,
    rd_b P10 b hb (Value.ix12_10 (ix2 p q)) 0 q rfl rfl,
    pay1_cheb P0 P1 P2 P3 x Lx Wx 2 r p q (Value.ix12_11 (ix2 p q)) rfl rfl hx hLx (hWx0 2) (hWx1 2),
    pay2_cheb P4 P5 P6 P7 h Lh Wh 2 r p q (Value.ix12_12 (ix2 p q)) rfl rfl hh hLh (hWh0 2) (hWh1 2),
    rd_b P10 b hb (Value.ix12_13 (ix2 p q)) 2 q rfl rfl]
  rfl

/-- THE HIDDEN-STATE BLOCK at (p, q) is the cell's new hidden state h' at (r, q). -/
theorem E11_eq
    (P0 : Vec Ideal S2000x128 .bf16) (P1 : Vec Ideal S128x512 .bf16) (P2 : Vec Ideal S2000x128 .bf16) (P3 : Vec Ideal S128x512 .bf16)
    (P4 : Vec Ideal S2000x128 .bf16) (P5 : Vec Ideal S128x512 .bf16) (P6 : Vec Ideal S2000x128 .bf16) (P7 : Vec Ideal S128x512 .bf16)
    (P8 : Vec Ideal S3x128 .f32) (P9 : Vec Ideal S2000x128 .f32) (P10 : Vec Ideal S4x128 .f32)
    (x Lx h Lh c : Act) (Wx Wh : Wts) (wc : (⟨2, ![3, 128]⟩ : Shape).Idx → EReal) (b : (⟨2, ![4, 128]⟩ : Shape).Idx → EReal)
    (r : Fin 20000) (p : Fin 2000) (q : Fin 128)
    (hx : ∀ k : Fin 128, P0 (ix2 p k) = x (ix2 r k)) (hLx : ∀ k : Fin 128, P2 (ix2 p k) = Lx (ix2 r k))
    (hh : ∀ k : Fin 128, P4 (ix2 p k) = h (ix2 r k)) (hLh : ∀ k : Fin 128, P6 (ix2 p k) = Lh (ix2 r k))
    (hWx0 : ∀ (g : Fin 4) (k : Fin 128), P1 (ix2 k (gcol g q)) = Wx (ix4 g (0 : Fin 2) k q))
    (hWx1 : ∀ (g : Fin 4) (k : Fin 128), P3 (ix2 k (gcol g q)) = Wx (ix4 g (1 : Fin 2) k q))
    (hWh0 : ∀ (g : Fin 4) (k : Fin 128), P5 (ix2 k (gcol g q)) = Wh (ix4 g (0 : Fin 2) k q))
    (hWh1 : ∀ (g : Fin 4) (k : Fin 128), P7 (ix2 k (gcol g q)) = Wh (ix4 g (1 : Fin 2) k q))
    (hwc : ∀ (g : Fin 3) (j : Fin 128), P8 (ix2 g j) = wc (ix2 g j))
    (hc : P9 (ix2 p q) = c (ix2 r q))
    (hb : ∀ (g : Fin 4) (j : Fin 128), P10 (ix2 g j) = b (ix2 g j)) :
    Value.E11 (F := Ideal) P0 P1 P2 P3 P4 P5 P6 P7 P8 P9 P10 (ix2 p q) = hNew x Lx h Lh c Wx Wh wc b r q := by
  dsimp only [Value.E11]
  rw [pay1_cheb P0 P1 P2 P3 x Lx Wx 3 r p q (Value.ix11_0 (ix2 p q)) rfl rfl hx hLx (hWx0 3) (hWx1 3),
    pay2_cheb P4 P5 P6 P7 h Lh Wh 3 r p q (Value.ix11_1 (ix2 p q)) rfl rfl hh hLh (hWh0 3) (hWh1 3),
    rd_wc P8 wc hwc (Value.ix11_2 (ix2 p q)) 2 q rfl rfl,
    pay1_cheb P0 P1 P2 P3 x Lx Wx 1 r p q (Value.ix11_3 (ix2 p q)) rfl rfl hx hLx (hWx0 1) (hWx1 1),
    pay2_cheb P4 P5 P6 P7 h Lh Wh 1 r p q (Value.ix11_4 (ix2 p q)) rfl rfl hh hLh (hWh0 1) (hWh1 1),
    rd_wc P8 wc hwc (Value.ix11_5 (ix2 p q)) 1 q rfl rfl,
    rd_c P9 c r p q hc (Value.ix11_6 (ix2 p q)) rfl rfl,
    rd_b P10 b hb (Value.ix11_7 (ix2 p q)) 1 q rfl rfl,
    pay1_cheb P0 P1 P2 P3 x Lx Wx 0 r p q (Value.ix11_9 (ix2 p q)) rfl rfl hx hLx (hWx0 0) (hWx1 0),
    pay2_cheb P4 P5 P6 P7 h Lh Wh 0 r p q (Value.ix11_10 (ix2 p q)) rfl rfl hh hLh (hWh0 0) (hWh1 0),
    rd_wc P8 wc hwc (Value.ix11_11 (ix2 p q)) 0 q rfl rfl,
    rd_b P10 b hb (Value.ix11_13 (ix2 p q)) 0 q rfl rfl,
    pay1_cheb P0 P1 P2 P3 x Lx Wx 2 r p q (Value.ix11_14 (ix2 p q)) rfl rfl hx hLx (hWx0 2) (hWx1 2),
    pay2_cheb P4 P5 P6 P7 h Lh Wh 2 r p q (Value.ix11_15 (ix2 p q)) rfl rfl hh hLh (hWh0 2) (hWh1 2),
    rd_b P10 b hb (Value.ix11_16 (ix2 p q)) 2 q rfl rfl,
    rd_b P10 b hb (Value.ix11_17 (ix2 p q)) 3 q rfl rfl]
  rfl

end Cert.KernelIdeal.Block

end
-- ==== Proof.KernelValue.lean ====
/-
  From blocks to arrays: what the kernel's two result arrays hold after the run.

  By the entry-wise reading of the body, what grid point t writes back to a result array is rows
  t · 2000 … t · 2000 + 1999 of ONE whole-array function: the cell's c' (and h') of the argument arrays, with the
  propagated features taken as the host's one-pass propagation of [x | h]. The ten blocks tile the 20000 rows — row
  r lies in block r / 2000 — so after the run each result array IS that function.
-/
import proofs.«116808_j35459249996211_2_alg».proof.Proof.Gen.KernelIdeal.Value
import proofs.«116808_j35459249996211_2_alg».proof.Proof.KernelBlocks
import proofs.«116808_j35459249996211_2_alg».proof.Proof.KernelBlock
import proofs.«116808_j35459249996211_2_alg».proof.Proof.Spec
import Idealize.ShloMosaic.PureOps.Ideal
import Idealize.ShloMosaic.Lib.Pipeline.Value
import Idealize.ShloMosaic.Lib.ValueIdx

set_option maxRecDepth 16384

noncomputable section

namespace Cert.KernelIdeal.ValueH

open Cert.KernelIdeal Cert.KernelIdeal.Gen Idealize.ShloMosaic Idealize.ShloMosaic.TcCoe Idealize.SL.Sem
open Idealize.ShloMosaic.ValueIdx Cert.GateSpec
open Idealize.ShloMosaic.Pipeline (Dat)

variable (m : (ℓ : Loc nD τ sig) → Buf (Elt Ideal) ℓ) (ρ : Dev nD → PrngReg)

/-! ## Output window 11 -/

/-- The window is not cut: the index of its leading part is the block index itself. -/
theorem xinj11 (t : Fin cfg0.N) (p : Fin 2000) (q : Fin 128) :
    (cfg0.win 11).xinj (grid0.coords t) (ix2 p q) = ix2 p q :=
  funext fun a => Fin.ext (by
    match a with
    | ⟨0, _⟩ => rfl
    | ⟨1, _⟩ => rfl)

/-- WHAT POINT t WRITES BACK to window 11's array is block t of GH. -/
theorem flushed11_eq (c : Dev nD) (t : Fin cfg0.N) :
    (dats m 0 c).flushed 11 t = ((cfg0.win 11).blk t).view.read (Elt Ideal) (GH m c) := by
  rw [Value.flushed11]
  unfold out0_11
  simp only [View.ld_unit_zero (S := S2000x128) hz, View.ld_unit_zero (S := S128x512) hz, View.ld_unit_zero (S := S3x128) hz,
    View.ld_unit_zero (S := S4x128) hz]
  funext y
  obtain ⟨p, q, rfl⟩ : ∃ (p : Fin 2000) (q : Fin 128), y = ix2 p q := ⟨y 0, y 1, eq_ix2 y⟩
  obtain ⟨e11a, e11b⟩ := idx11 t
  have hemb : ((cfg0.win 11).blk t).view.emb (ix2 p q) = ix2 (rowOf t p) q := funext fun a => Fin.ext (by
    match a with
    | ⟨0, _⟩ => show win0_11.index t (0 : Fin 2) * 2000 + 1 * p.val = t.val * 2000 + p.val; omega
    | ⟨1, _⟩ => show win0_11.index t (1 : Fin 2) * 128 + 1 * q.val = q.val; omega)
  refine (Value.canon11_eq (iblk m c 0 t) (iblk m c 5 t) (iblk m c 1 t) (iblk m c 6 t) (iblk m c 2 t) (iblk m c 7 t) (iblk m c 3 t) (iblk m c 8 t) (iblk m c 9 t) (iblk m c 4 t) (iblk m c 10 t)
    ((cfg0.win 11).xinj (grid0.coords t) (ix2 p q))).trans ?_
  rw [xinj11]
  refine (Block.E11_eq (iblk m c 0 t) (iblk m c 5 t) (iblk m c 1 t) (iblk m c 6 t) (iblk m c 2 t) (iblk m c 7 t) (iblk m c 3 t) (iblk m c 8 t) (iblk m c 9 t) (iblk m c 4 t) (iblk m c 10 t)
    (A0 m c) (LXk m c) (A2 m c) (LHk m c) (A3 m c) (A4 m c) (A5 m c) (A7 m c) (A6 m c) (rowOf t p) p q
    (fun k => blk0_apply m c t p k)
    (fun k => blk1_apply m c t p k)
    (fun k => blk2_apply m c t p k)
    (fun k => blk3_apply m c t p k)
    (fun g k => (blk5_apply m c t k (HostRead.gcol g q)).trans (HostRead.wOrd0_apply _ g k q))
    (fun g k => (blk6_apply m c t k (HostRead.gcol g q)).trans (HostRead.wOrd1_apply _ g k q))
    (fun g k => (blk7_apply m c t k (HostRead.gcol g q)).trans (HostRead.wOrd0_apply _ g k q))
    (fun g k => (blk8_apply m c t k (HostRead.gcol g q)).trans (HostRead.wOrd1_apply _ g k q))
    (fun g j => blk9_apply m c t g j)
    (blk4_apply m c t p q)
    (fun g j => blk10_apply m c t g j)).trans ?_
  show _ = GH m c (((cfg0.win 11).blk t).view.emb (ix2 p q))
  rw [hemb]
  rfl

/-- An index of the array is in point t's block iff each coordinate is in the block's range on its axis. -/
theorem mem_blk11 (t : Fin cfg0.N) (i : S20000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v58_0).slice (win0_11.rect t)).set ↔ _
  rw [View.set_slice_whole, Rect.mem_set_unit]
  exact Iff.rfl

/-- Every index lies in the block of the point its row belongs to: row r is in block r / 2000. -/
theorem cover11 (i : S20000x128.Idx) :
    ∃ t : Fin cfg0.N, (cfg0.win 11).flush t = true ∧ i ∈ ((cfg0.win 11).blk t).view.set := by
  have hi0 : (i 0).val < 20000 := (i 0).isLt
  have hi1 : (i 1).val < 128 := (i 1).isLt
  refine ⟨⟨(i 0).val / 2000, by show (i 0).val / 2000 < 10; omega⟩, flush0_11 _, ?_⟩
  obtain ⟨e11a, e11b⟩ := idx11 ⟨(i 0).val / 2000, by show (i 0).val / 2000 < 10; omega⟩
  rw [mem_blk11]
  intro a
  match a with
  | ⟨0, _⟩ =>
    show win0_11.index _ (0 : Fin 2) * 2000 ≤ (i 0).val ∧ (i 0).val < win0_11.index _ (0 : Fin 2) * 2000 + 2000
    rw [e11a]; show (i 0).val / 2000 * 2000 ≤ (i 0).val ∧ (i 0).val < (i 0).val / 2000 * 2000 + 2000; omega
  | ⟨1, _⟩ =>
    show win0_11.index _ (1 : Fin 2) * 128 ≤ (i 1).val ∧ (i 1).val < win0_11.index _ (1 : Fin 2) * 128 + 128
    rw [e11b]; omega

/-- THE ARRAY after the run is GH. -/
theorem final11 (c : Dev nD) : (dats m 0 c).arrAt 11 cfg0.N = GH m c :=
  (dats m 0 c).arrAt_eq_of_cover 11 (GH m c) (fun t _ => flushed11_eq m c t) (cover11)

/-! ## Output window 12 -/

/-- The window is not cut: the index of its leading part is the block index itself. -/
theorem xinj12 (t : Fin cfg0.N) (p : Fin 2000) (q : Fin 128) :
    (cfg0.win 12).xinj (grid0.coords t) (ix2 p q) = ix2 p q :=
  funext fun a => Fin.ext (by
    match a with
    | ⟨0, _⟩ => rfl
    | ⟨1, _⟩ => rfl)

/-- WHAT POINT t WRITES BACK to window 12's array is block t of GC. -/
theorem flushed12_eq (c : Dev nD) (t : Fin cfg0.N) :
    (dats m 0 c).flushed 12 t = ((cfg0.win 12).blk t).view.read (Elt Ideal) (GC m c) := by
  rw [Value.flushed12]
  unfold out0_12
  simp only [View.ld_unit_zero (S := S2000x128) hz, View.ld_unit_zero (S := S128x512) hz, View.ld_unit_zero (S := S3x128) hz,
    View.ld_unit_zero (S := S4x128) hz]
  funext y
  obtain ⟨p, q, rfl⟩ : ∃ (p : Fin 2000) (q : Fin 128), y = ix2 p q := ⟨y 0, y 1, eq_ix2 y⟩
  obtain ⟨e12a, e12b⟩ := idx12 t
  have hemb : ((cfg0.win 12).blk t).view.emb (ix2 p q) = ix2 (rowOf t p) q := funext fun a => Fin.ext (by
    match a with
    | ⟨0, _⟩ => show win0_12.index t (0 : Fin 2) * 2000 + 1 * p.val = t.val * 2000 + p.val; omega
    | ⟨1, _⟩ => show win0_12.index t (1 : Fin 2) * 128 + 1 * q.val = q.val; omega)
  refine (Value.canon12_eq (iblk m c 0 t) (iblk m c 5 t) (iblk m c 1 t) (iblk m c 6 t) (iblk m c 2 t) (iblk m c 7 t) (iblk m c 3 t) (iblk m c 8 t) (iblk m c 9 t) (iblk m c 4 t) (iblk m c 10 t)
    ((cfg0.win 12).xinj (grid0.coords t) (ix2 p q))).trans ?_
  rw [xinj12]
  refine (Block.E12_eq (iblk m c 0 t) (iblk m c 5 t) (iblk m c 1 t) (iblk m c 6 t) (iblk m c 2 t) (iblk m c 7 t) (iblk m c 3 t) (iblk m c 8 t) (iblk m c 9 t) (iblk m c 4 t) (iblk m c 10 t)
    (A0 m c) (LXk m c) (A2 m c) (LHk m c) (A3 m c) (A4 m c) (A5 m c) (A7 m c) (A6 m c) (rowOf t p) p q
    (fun k => blk0_apply m c t p k)
    (fun k => blk1_apply m c t p k)
    (fun k => blk2_apply m c t p k)
    (fun k => blk3_apply m c t p k)
    (fun g k => (blk5_apply m c t k (HostRead.gcol g q)).trans (HostRead.wOrd0_apply _ g k q))
    (fun g k => (blk6_apply m c t k (HostRead.gcol g q)).trans (HostRead.wOrd1_apply _ g k q))
    (fun g k => (blk7_apply m c t k (HostRead.gcol g q)).trans (HostRead.wOrd0_apply _ g k q))
    (fun g k => (blk8_apply m c t k (HostRead.gcol g q)).trans (HostRead.wOrd1_apply _ g k q))
    (fun g j => blk9_apply m c t g j)
    (blk4_apply m c t p q)
    (fun g j => blk10_apply m c t g j)).trans ?_
  show _ = GC m c (((cfg0.win 12).blk t).view.emb (ix2 p q))
  rw [hemb]
  rfl

/-- An index of the array is in point t's block iff each coordinate is in the block's range on its axis. -/
theorem mem_blk12 (t : Fin cfg0.N) (i : S20000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v58_1).slice (win0_12.rect t)).set ↔ _
  rw [View.set_slice_whole, Rect.mem_set_unit]
  exact Iff.rfl

/-- Every index lies in the block of the point its row belongs to: row r is in block r / 2000. -/
theorem cover12 (i : S20000x128.Idx) :
    ∃ t : Fin cfg0.N, (cfg0.win 12).flush t = true ∧ i ∈ ((cfg0.win 12).blk t).view.set := by
  have hi0 : (i 0).val < 20000 := (i 0).isLt
  have hi1 : (i 1).val < 128 := (i 1).isLt
  refine ⟨⟨(i 0).val / 2000, by show (i 0).val / 2000 < 10; omega⟩, flush0_12 _, ?_⟩
  obtain ⟨e12a, e12b⟩ := idx12 ⟨(i 0).val / 2000, by show (i 0).val / 2000 < 10; omega⟩
  rw [mem_blk12]
  intro a
  match a with
  | ⟨0, _⟩ =>
    show win0_12.index _ (0 : Fin 2) * 2000 ≤ (i 0).val ∧ (i 0).val < win0_12.index _ (0 : Fin 2) * 2000 + 2000
    rw [e12a]; show (i 0).val / 2000 * 2000 ≤ (i 0).val ∧ (i 0).val < (i 0).val / 2000 * 2000 + 2000; omega
  | ⟨1, _⟩ =>
    show win0_12.index _ (1 : Fin 2) * 128 ≤ (i 1).val ∧ (i 1).val < win0_12.index _ (1 : Fin 2) * 128 + 128
    rw [e12b]; omega

/-- THE ARRAY after the run is GC. -/
theorem final12 (c : Dev nD) : (dats m 0 c).arrAt 12 cfg0.N = GC m c :=
  (dats m 0 c).arrAt_eq_of_cover 12 (GC m c) (fun t _ => flushed12_eq m c t) (cover12)

/-! ## The run, read -/

/-- The kernel's run re-posted: the hidden-state result is GH, the cell-state result GC, the arguments unchanged. -/
theorem run : θ_run defs (onTc (τ := τ) (main (F := Ideal))) ⟨m, fun _ => 0, ρ⟩ fun r => ∀ c : Dev nD,
      r.2.mem ((c : Thread nD τ).loc main_v58_0) = GH m c
      ∧ r.2.mem ((c : Thread nD τ).loc main_v58_1) = GC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final11 m c), (h c).2.1.trans (final12 m c), (h c).2.2⟩)
    (Value.run_blocks m ρ)

end Cert.KernelIdeal.ValueH

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.RefValue.lean ====
/-
  The reference, entry by entry, is the cell.

  The reference computes each gate's pre-activation from eight matrix products: x and h against the order-0
  weights of the gate, and the propagated x and h against its order-1 weights; it recomputes the two propagations
  for every gate, from the same operands, so all four copies of each are one array. A weight matrix is cut out of
  its tensor by slicing at the gate, dropping that axis, slicing at the order and dropping that too; a peephole or
  bias row by slicing at its row, flattening and broadcasting down the 20000 rows. jax spells the logistic
  function as 1 / (1 + exp (−z)), which on the extended reals IS the logistic function. Read at (r, j), stage by
  stage, the two results are the cell's h' and c' with the propagated features taken as the reference's own.
-/
import proofs.«116808_j35459249996211_2_alg».proof.Proof.RefReadP
import proofs.«116808_j35459249996211_2_alg».proof.Proof.LibHostReads
import proofs.«116808_j35459249996211_2_alg».proof.Proof.Spec
import Idealize.ShloMosaic.PureOps.Ideal
import Idealize.ShloMosaic.Lib.ValueIdx

noncomputable section

open scoped BigOperators

namespace Cert.ReferenceIdeal.RefValue

open Cert.ReferenceIdeal Cert.ReferenceIdeal.ReadP Idealize.ShloMosaic Idealize.ShloMosaic.ValueIdx Cert.GateSpec Cert.LibHostReads

variable (x0 : (⟨S20000x128, .f32⟩ : BufTy).Contents (Elt Ideal)) (x1 : (⟨S640000, .f32⟩ : BufTy).Contents (Elt Ideal))
  (x2 x3 : (⟨S20000x128, .f32⟩ : BufTy).Contents (Elt Ideal)) (x4 x5 : (⟨S4x2x128x128, .f32⟩ : BufTy).Contents (Elt Ideal))
  (x6 : (⟨S4x128, .f32⟩ : BufTy).Contents (Elt Ideal)) (x7 : (⟨S3x128, .f32⟩ : BufTy).Contents (Elt Ideal))
  (x8 x9 : (⟨S640000, .i32⟩ : BufTy).Contents (Elt Ideal))

/-! ## The propagations are computed once, whatever the gate -/

set_option maxRecDepth 8192 in
/-- The reference recomputes the same propagation for every gate: this copy is the first one. -/
theorem lap_v107 : val_main_v107 (F := Ideal) x0 x1 x8 x9 = val_main_v43 (F := Ideal) x0 x1 x8 x9 := rfl

set_option maxRecDepth 8192 in
/-- The reference recomputes the same propagation for every gate: this copy is the first one. -/
theorem lap_v172 : val_main_v172 (F := Ideal) x0 x1 x8 x9 = val_main_v43 (F := Ideal) x0 x1 x8 x9 := rfl

set_option maxRecDepth 8192 in
/-- The reference recomputes the same propagation for every gate: this copy is the first one. -/
theorem lap_v227 : val_main_v227 (F := Ideal) x0 x1 x8 x9 = val_main_v43 (F := Ideal) x0 x1 x8 x9 := rfl

set_option maxRecDepth 8192 in
/-- The reference recomputes the same propagation for every gate: this copy is the first one. -/
theorem lap_v130 : val_main_v130 (F := Ideal) x1 x2 x8 x9 = val_main_v66 (F := Ideal) x1 x2 x8 x9 := rfl

set_option maxRecDepth 8192 in
/-- The reference recomputes the same propagation for every gate: this copy is the first one. -/
theorem lap_v195 : val_main_v195 (F := Ideal) x1 x2 x8 x9 = val_main_v66 (F := Ideal) x1 x2 x8 x9 := rfl

set_option maxRecDepth 8192 in
/-- The reference recomputes the same propagation for every gate: this copy is the first one. -/
theorem lap_v250 : val_main_v250 (F := Ideal) x1 x2 x8 x9 = val_main_v66 (F := Ideal) x1 x2 x8 x9 := rfl

/-! ## Stage by stage at (r, j) -/

theorem rd_v271 (r : Fin 20000) (j : Fin 128) :
    val_main_v271 (F := Ideal) (ix2 r j) = Ideal.ofBits .f32 0x3F800000#32 := by
  rfl

theorem rd_v269 (r : Fin 20000) (j : Fin 128) :
    val_main_v269 (F := Ideal) (ix2 r j) = Ideal.ofBits .f32 0x3F800000#32 := by
  rfl

theorem rd_v213 (r : Fin 20000) (j : Fin 128) :
    val_main_v213 (F := Ideal) x0 x4 (ix2 r j) = (∑ k : Fin 128, x0 (ix2 r k) * x4 (ix4 (3 : Fin 4) (0 : Fin 2) k j)) := by
  unfold val_main_v213
  refine (dotGeneral_plain_apply 20000 128 128 none _ _ r j).trans (Finset.sum_congr rfl fun k _ => ?_)
  rw [show val_main_v212 (F := Ideal) x4 (ix2 k j) = x4 (ix4 (3 : Fin 4) (0 : Fin 2) k j) from
    select_matrix_apply (G := 4) (O := 2) (K := 128) (N := 128) x4 (3 : Fin 4) (0 : Fin 2) _ _ _ _ k j]

theorem rd_v230 (r : Fin 20000) (j : Fin 128) :
    val_main_v230 (F := Ideal) x0 x1 x4 x8 x9 (ix2 r j) = (∑ k : Fin 128, (val_main_v43 (F := Ideal) x0 x1 x8 x9) (ix2 r k) * x4 (ix4 (3 : Fin 4) (1 : Fin 2) k j)) := by
  unfold val_main_v230
  rw [lap_v227]
  refine (dotGeneral_plain_apply 20000 128 128 none _ _ r j).trans (Finset.sum_congr rfl fun k _ => ?_)
  rw [show val_main_v229 (F := Ideal) x4 (ix2 k j) = x4 (ix4 (3 : Fin 4) (1 : Fin 2) k j) from
    select_matrix_apply (G := 4) (O := 2) (K := 128) (N := 128) x4 (3 : Fin 4) (1 : Fin 2) _ _ _ _ k j]

theorem rd_v231 (r : Fin 20000) (j : Fin 128) :
    val_main_v231 (F := Ideal) x0 x1 x4 x8 x9 (ix2 r j) = ((∑ k : Fin 128, x0 (ix2 r k) * x4 (ix4 (3 : Fin 4) (0 : Fin 2) k j)) + (∑ k : Fin 128, (val_main_v43 (F := Ideal) x0 x1 x8 x9) (ix2 r k) * x4 (ix4 (3 : Fin 4) (1 : Fin 2) k j))) := by
  unfold val_main_v231
  show (val_main_v213 (F := Ideal) x0 x4 (ix2 r j) + val_main_v230 (F := Ideal) x0 x1 x4 x8 x9 (ix2 r j)) = _
  rw [rd_v213, rd_v230]

theorem rd_v236 (r : Fin 20000) (j : Fin 128) :
    val_main_v236 (F := Ideal) x2 x5 (ix2 r j) = (∑ k : Fin 128, x2 (ix2 r k) * x5 (ix4 (3 : Fin 4) (0 : Fin 2) k j)) := by
  unfold val_main_v236
  refine (dotGeneral_plain_apply 20000 128 128 none _ _ r j).trans (Finset.sum_congr rfl fun k _ => ?_)
  rw [show val_main_v235 (F := Ideal) x5 (ix2 k j) = x5 (ix4 (3 : Fin 4) (0 : Fin 2) k j) from
    select_matrix_apply (G := 4) (O := 2) (K := 128) (N := 128) x5 (3 : Fin 4) (0 : Fin 2) _ _ _ _ k j]

theorem rd_v253 (r : Fin 20000) (j : Fin 128) :
    val_main_v253 (F := Ideal) x1 x2 x5 x8 x9 (ix2 r j) = (∑ k : Fin 128, (val_main_v66 (F := Ideal) x1 x2 x8 x9) (ix2 r k) * x5 (ix4 (3 : Fin 4) (1 : Fin 2) k j)) := by
  unfold val_main_v253
  rw [lap_v250]
  refine (dotGeneral_plain_apply 20000 128 128 none _ _ r j).trans (Finset.sum_congr rfl fun k _ => ?_)
  rw [show val_main_v252 (F := Ideal) x5 (ix2 k j) = x5 (ix4 (3 : Fin 4) (1 : Fin 2) k j) from
    select_matrix_apply (G := 4) (O := 2) (K := 128) (N := 128) x5 (3 : Fin 4) (1 : Fin 2) _ _ _ _ k j]

theorem rd_v254 (r : Fin 20000) (j : Fin 128) :
    val_main_v254 (F := Ideal) x1 x2 x5 x8 x9 (ix2 r j) = ((∑ k : Fin 128, x2 (ix2 r k) * x5 (ix4 (3 : Fin 4) (0 : Fin 2) k j)) + (∑ k : Fin 128, (val_main_v66 (F := Ideal) x1 x2 x8 x9) (ix2 r k) * x5 (ix4 (3 : Fin 4) (1 : Fin 2) k j))) := by
  unfold val_main_v254
  show (val_main_v236 (F := Ideal) x2 x5 (ix2 r j) + val_main_v253 (F := Ideal) x1 x2 x5 x8 x9 (ix2 r j)) = _
  rw [rd_v236, rd_v253]

theorem rd_v255 (r : Fin 20000) (j : Fin 128) :
    val_main_v255 (F := Ideal) x0 x1 x2 x4 x5 x8 x9 (ix2 r j) = pre x0 (val_main_v43 (F := Ideal) x0 x1 x8 x9) x2 (val_main_v66 (F := Ideal) x1 x2 x8 x9) x4 x5 (3 : Fin 4) r j := by
  unfold val_main_v255
  show (val_main_v231 (F := Ideal) x0 x1 x4 x8 x9 (ix2 r j) + val_main_v254 (F := Ideal) x1 x2 x5 x8 x9 (ix2 r j)) = _
  rw [rd_v231, rd_v254]
  rfl

theorem rd_v259 (r : Fin 20000) (j : Fin 128) :
    val_main_v259 (F := Ideal) x7 (ix2 r j) = x7 (ix2 (2 : Fin 3) j) := by
  exact select_row_apply (G := 3) (N := 128) (M := 20000) (by decide) x7 (2 : Fin 3) _ _ _ _ r j

theorem rd_v151 (r : Fin 20000) (j : Fin 128) :
    val_main_v151 (F := Ideal) (ix2 r j) = Ideal.ofBits .f32 0x3F800000#32 := by
  rfl

theorem rd_v149 (r : Fin 20000) (j : Fin 128) :
    val_main_v149 (F := Ideal) (ix2 r j) = Ideal.ofBits .f32 0x3F800000#32 := by
  rfl

theorem rd_v93 (r : Fin 20000) (j : Fin 128) :
    val_main_v93 (F := Ideal) x0 x4 (ix2 r j) = (∑ k : Fin 128, x0 (ix2 r k) * x4 (ix4 (1 : Fin 4) (0 : Fin 2) k j)) := by
  unfold val_main_v93
  refine (dotGeneral_plain_apply 20000 128 128 none _ _ r j).trans (Finset.sum_congr rfl fun k _ => ?_)
  rw [show val_main_v92 (F := Ideal) x4 (ix2 k j) = x4 (ix4 (1 : Fin 4) (0 : Fin 2) k j) from
    select_matrix_apply (G := 4) (O := 2) (K := 128) (N := 128) x4 (1 : Fin 4) (0 : Fin 2) _ _ _ _ k j]

theorem rd_v110 (r : Fin 20000) (j : Fin 128) :
    val_main_v110 (F := Ideal) x0 x1 x4 x8 x9 (ix2 r j) = (∑ k : Fin 128, (val_main_v43 (F := Ideal) x0 x1 x8 x9) (ix2 r k) * x4 (ix4 (1 : Fin 4) (1 : Fin 2) k j)) := by
  unfold val_main_v110
  rw [lap_v107]
  refine (dotGeneral_plain_apply 20000 128 128 none _ _ r j).trans (Finset.sum_congr rfl fun k _ => ?_)
  rw [show val_main_v109 (F := Ideal) x4 (ix2 k j) = x4 (ix4 (1 : Fin 4) (1 : Fin 2) k j) from
    select_matrix_apply (G := 4) (O := 2) (K := 128) (N := 128) x4 (1 : Fin 4) (1 : Fin 2) _ _ _ _ k j]

theorem rd_v111 (r : Fin 20000) (j : Fin 128) :
    val_main_v111 (F := Ideal) x0 x1 x4 x8 x9 (ix2 r j) = ((∑ k : Fin 128, x0 (ix2 r k) * x4 (ix4 (1 : Fin 4) (0 : Fin 2) k j)) + (∑ k : Fin 128, (val_main_v43 (F := Ideal) x0 x1 x8 x9) (ix2 r k) * x4 (ix4 (1 : Fin 4) (1 : Fin 2) k j))) := by
  unfold val_main_v111
  show (val_main_v93 (F := Ideal) x0 x4 (ix2 r j) + val_main_v110 (F := Ideal) x0 x1 x4 x8 x9 (ix2 r j)) = _
  rw [rd_v93, rd_v110]

theorem rd_v116 (r : Fin 20000) (j : Fin 128) :
    val_main_v116 (F := Ideal) x2 x5 (ix2 r j) = (∑ k : Fin 128, x2 (ix2 r k) * x5 (ix4 (1 : Fin 4) (0 : Fin 2) k j)) := by
  unfold val_main_v116
  refine (dotGeneral_plain_apply 20000 128 128 none _ _ r j).trans (Finset.sum_congr rfl fun k _ => ?_)
  rw [show val_main_v115 (F := Ideal) x5 (ix2 k j) = x5 (ix4 (1 : Fin 4) (0 : Fin 2) k j) from
    select_matrix_apply (G := 4) (O := 2) (K := 128) (N := 128) x5 (1 : Fin 4) (0 : Fin 2) _ _ _ _ k j]

theorem rd_v133 (r : Fin 20000) (j : Fin 128) :
    val_main_v133 (F := Ideal) x1 x2 x5 x8 x9 (ix2 r j) = (∑ k : Fin 128, (val_main_v66 (F := Ideal) x1 x2 x8 x9) (ix2 r k) * x5 (ix4 (1 : Fin 4) (1 : Fin 2) k j)) := by
  unfold val_main_v133
  rw [lap_v130]
  refine (dotGeneral_plain_apply 20000 128 128 none _ _ r j).trans (Finset.sum_congr rfl fun k _ => ?_)
  rw [show val_main_v132 (F := Ideal) x5 (ix2 k j) = x5 (ix4 (1 : Fin 4) (1 : Fin 2) k j) from
    select_matrix_apply (G := 4) (O := 2) (K := 128) (N := 128) x5 (1 : Fin 4) (1 : Fin 2) _ _ _ _ k j]

theorem rd_v134 (r : Fin 20000) (j : Fin 128) :
    val_main_v134 (F := Ideal) x1 x2 x5 x8 x9 (ix2 r j) = ((∑ k : Fin 128, x2 (ix2 r k) * x5 (ix4 (1 : Fin 4) (0 : Fin 2) k j)) + (∑ k : Fin 128, (val_main_v66 (F := Ideal) x1 x2 x8 x9) (ix2 r k) * x5 (ix4 (1 : Fin 4) (1 : Fin 2) k j))) := by
  unfold val_main_v134
  show (val_main_v116 (F := Ideal) x2 x5 (ix2 r j) + val_main_v133 (F := Ideal) x1 x2 x5 x8 x9 (ix2 r j)) = _
  rw [rd_v116, rd_v133]

theorem rd_v135 (r : Fin 20000) (j : Fin 128) :
    val_main_v135 (F := Ideal) x0 x1 x2 x4 x5 x8 x9 (ix2 r j) = pre x0 (val_main_v43 (F := Ideal) x0 x1 x8 x9) x2 (val_main_v66 (F := Ideal) x1 x2 x8 x9) x4 x5 (1 : Fin 4) r j := by
  unfold val_main_v135
  show (val_main_v111 (F := Ideal) x0 x1 x4 x8 x9 (ix2 r j) + val_main_v134 (F := Ideal) x1 x2 x5 x8 x9 (ix2 r j)) = _
  rw [rd_v111, rd_v134]
  rfl

theorem rd_v139 (r : Fin 20000) (j : Fin 128) :
    val_main_v139 (F := Ideal) x7 (ix2 r j) = x7 (ix2 (1 : Fin 3) j) := by
  exact select_row_apply (G := 3) (N := 128) (M := 20000) (by decide) x7 (1 : Fin 3) _ _ _ _ r j

theorem rd_v140 (r : Fin 20000) (j : Fin 128) :
    val_main_v140 (F := Ideal) x3 x7 (ix2 r j) = (x7 (ix2 (1 : Fin 3) j) * x3 (ix2 r j)) := by
  unfold val_main_v140
  show (val_main_v139 (F := Ideal) x7 (ix2 r j) * x3 (ix2 r j)) = _
  rw [rd_v139]

theorem rd_v141 (r : Fin 20000) (j : Fin 128) :
    val_main_v141 (F := Ideal) x0 x1 x2 x3 x4 x5 x7 x8 x9 (ix2 r j) = (pre x0 (val_main_v43 (F := Ideal) x0 x1 x8 x9) x2 (val_main_v66 (F := Ideal) x1 x2 x8 x9) x4 x5 (1 : Fin 4) r j + (x7 (ix2 (1 : Fin 3) j) * x3 (ix2 r j))) := by
  unfold val_main_v141
  show (val_main_v135 (F := Ideal) x0 x1 x2 x4 x5 x8 x9 (ix2 r j) + val_main_v140 (F := Ideal) x3 x7 (ix2 r j)) = _
  rw [rd_v135, rd_v140]

theorem rd_v145 (r : Fin 20000) (j : Fin 128) :
    val_main_v145 (F := Ideal) x6 (ix2 r j) = x6 (ix2 (1 : Fin 4) j) := by
  exact select_row_apply (G := 4) (N := 128) (M := 20000) (by decide) x6 (1 : Fin 4) _ _ _ _ r j

theorem rd_v146 (r : Fin 20000) (j : Fin 128) :
    val_main_v146 (F := Ideal) x0 x1 x2 x3 x4 x5 x6 x7 x8 x9 (ix2 r j) = ((pre x0 (val_main_v43 (F := Ideal) x0 x1 x8 x9) x2 (val_main_v66 (F := Ideal) x1 x2 x8 x9) x4 x5 (1 : Fin 4) r j + (x7 (ix2 (1 : Fin 3) j) * x3 (ix2 r j))) + x6 (ix2 (1 : Fin 4) j)) := by
  unfold val_main_v146
  show (val_main_v141 (F := Ideal) x0 x1 x2 x3 x4 x5 x7 x8 x9 (ix2 r j) + val_main_v145 (F := Ideal) x6 (ix2 r j)) = _
  rw [rd_v141, rd_v145]

theorem rd_v147 (r : Fin 20000) (j : Fin 128) :
    val_main_v147 (F := Ideal) x0 x1 x2 x3 x4 x5 x6 x7 x8 x9 (ix2 r j) = (-(((pre x0 (val_main_v43 (F := Ideal) x0 x1 x8 x9) x2 (val_main_v66 (F := Ideal) x1 x2 x8 x9) x4 x5 (1 : Fin 4) r j + (x7 (ix2 (1 : Fin 3) j) * x3 (ix2 r j))) + x6 (ix2 (1 : Fin 4) j)))) := by
  unfold val_main_v147
  show (-(val_main_v146 (F := Ideal) x0 x1 x2 x3 x4 x5 x6 x7 x8 x9 (ix2 r j))) = _
  rw [rd_v146]

theorem rd_v148 (r : Fin 20000) (j : Fin 128) :
    val_main_v148 (F := Ideal) x0 x1 x2 x3 x4 x5 x6 x7 x8 x9 (ix2 r j) = Ideal.exp ((-(((pre x0 (val_main_v43 (F := Ideal) x0 x1 x8 x9) x2 (val_main_v66 (F := Ideal) x1 x2 x8 x9) x4 x5 (1 : Fin 4) r j + (x7 (ix2 (1 : Fin 3) j) * x3 (ix2 r j))) + x6 (ix2 (1 : Fin 4) j))))) := by
  unfold val_main_v148
  show Ideal.exp (val_main_v147 (F := Ideal) x0 x1 x2 x3 x4 x5 x6 x7 x8 x9 (ix2 r j)) = _
  rw [rd_v147]

theorem rd_v150 (r : Fin 20000) (j : Fin 128) :
    val_main_v150 (F := Ideal) x0 x1 x2 x3 x4 x5 x6 x7 x8 x9 (ix2 r j) = (Ideal.ofBits .f32 0x3F800000#32 + Ideal.exp ((-(((pre x0 (val_main_v43 (F := Ideal) x0 x1 x8 x9) x2 (val_main_v66 (F := Ideal) x1 x2 x8 x9) x4 x5 (1 : Fin 4) r j + (x7 (ix2 (1 : Fin 3) j) * x3 (ix2 r j))) + x6 (ix2 (1 : Fin 4) j)))))) := by
  unfold val_main_v150
  show (val_main_v149 (F := Ideal) (ix2 r j) + val_main_v148 (F := Ideal) x0 x1 x2 x3 x4 x5 x6 x7 x8 x9 (ix2 r j)) = _
  rw [rd_v149, rd_v148]

theorem rd_v152 (r : Fin 20000) (j : Fin 128) :
    val_main_v152 (F := Ideal) x0 x1 x2 x3 x4 x5 x6 x7 x8 x9 (ix2 r j) = fGate x0 (val_main_v43 (F := Ideal) x0 x1 x8 x9) x2 (val_main_v66 (F := Ideal) x1 x2 x8 x9) x3 x4 x5 x7 x6 r j := by
  unfold val_main_v152
  show Ideal.div (val_main_v151 (F := Ideal) (ix2 r j)) (val_main_v150 (F := Ideal) x0 x1 x2 x3 x4 x5 x6 x7 x8 x9 (ix2 r j)) = _
  rw [rd_v151, rd_v150]
  rw [ofBits_one_f32]; rfl

theorem rd_v153 (r : Fin 20000) (j : Fin 128) :
    val_main_v153 (F := Ideal) x0 x1 x2 x3 x4 x5 x6 x7 x8 x9 (ix2 r j) = (fGate x0 (val_main_v43 (F := Ideal) x0 x1 x8 x9) x2 (val_main_v66 (F := Ideal) x1 x2 x8 x9) x3 x4 x5 x7 x6 r j * x3 (ix2 r j)) := by
  unfold val_main_v153
  show (val_main_v152 (F := Ideal) x0 x1 x2 x3 x4 x5 x6 x7 x8 x9 (ix2 r j) * x3 (ix2 r j)) = _
  rw [rd_v152]

theorem rd_v87 (r : Fin 20000) (j : Fin 128) :
    val_main_v87 (F := Ideal) (ix2 r j) = Ideal.ofBits .f32 0x3F800000#32 := by
  rfl

theorem rd_v85 (r : Fin 20000) (j : Fin 128) :
    val_main_v85 (F := Ideal) (ix2 r j) = Ideal.ofBits .f32 0x3F800000#32 := by
  rfl

theorem rd_v29 (r : Fin 20000) (j : Fin 128) :
    val_main_v29 (F := Ideal) x0 x4 (ix2 r j) = (∑ k : Fin 128, x0 (ix2 r k) * x4 (ix4 (0 : Fin 4) (0 : Fin 2) k j)) := by
  unfold val_main_v29
  refine (dotGeneral_plain_apply 20000 128 128 none _ _ r j).trans (Finset.sum_congr rfl fun k _ => ?_)
  rw [show val_main_v28 (F := Ideal) x4 (ix2 k j) = x4 (ix4 (0 : Fin 4) (0 : Fin 2) k j) from
    select_matrix_apply (G := 4) (O := 2) (K := 128) (N := 128) x4 (0 : Fin 4) (0 : Fin 2) _ _ _ _ k j]

theorem rd_v46 (r : Fin 20000) (j : Fin 128) :
    val_main_v46 (F := Ideal) x0 x1 x4 x8 x9 (ix2 r j) = (∑ k : Fin 128, (val_main_v43 (F := Ideal) x0 x1 x8 x9) (ix2 r k) * x4 (ix4 (0 : Fin 4) (1 : Fin 2) k j)) := by
  unfold val_main_v46
  refine (dotGeneral_plain_apply 20000 128 128 none _ _ r j).trans (Finset.sum_congr rfl fun k _ => ?_)
  rw [show val_main_v45 (F := Ideal) x4 (ix2 k j) = x4 (ix4 (0 : Fin 4) (1 : Fin 2) k j) from
    select_matrix_apply (G := 4) (O := 2) (K := 128) (N := 128) x4 (0 : Fin 4) (1 : Fin 2) _ _ _ _ k j]

theorem rd_v47 (r : Fin 20000) (j : Fin 128) :
    val_main_v47 (F := Ideal) x0 x1 x4 x8 x9 (ix2 r j) = ((∑ k : Fin 128, x0 (ix2 r k) * x4 (ix4 (0 : Fin 4) (0 : Fin 2) k j)) + (∑ k : Fin 128, (val_main_v43 (F := Ideal) x0 x1 x8 x9) (ix2 r k) * x4 (ix4 (0 : Fin 4) (1 : Fin 2) k j))) := by
  unfold val_main_v47
  show (val_main_v29 (F := Ideal) x0 x4 (ix2 r j) + val_main_v46 (F := Ideal) x0 x1 x4 x8 x9 (ix2 r j)) = _
  rw [rd_v29, rd_v46]

theorem rd_v52 (r : Fin 20000) (j : Fin 128) :
    val_main_v52 (F := Ideal) x2 x5 (ix2 r j) = (∑ k : Fin 128, x2 (ix2 r k) * x5 (ix4 (0 : Fin 4) (0 : Fin 2) k j)) := by
  unfold val_main_v52
  refine (dotGeneral_plain_apply 20000 128 128 none _ _ r j).trans (Finset.sum_congr rfl fun k _ => ?_)
  rw [show val_main_v51 (F := Ideal) x5 (ix2 k j) = x5 (ix4 (0 : Fin 4) (0 : Fin 2) k j) from
    select_matrix_apply (G := 4) (O := 2) (K := 128) (N := 128) x5 (0 : Fin 4) (0 : Fin 2) _ _ _ _ k j]

theorem rd_v69 (r : Fin 20000) (j : Fin 128) :
    val_main_v69 (F := Ideal) x1 x2 x5 x8 x9 (ix2 r j) = (∑ k : Fin 128, (val_main_v66 (F := Ideal) x1 x2 x8 x9) (ix2 r k) * x5 (ix4 (0 : Fin 4) (1 : Fin 2) k j)) := by
  unfold val_main_v69
  refine (dotGeneral_plain_apply 20000 128 128 none _ _ r j).trans (Finset.sum_congr rfl fun k _ => ?_)
  rw [show val_main_v68 (F := Ideal) x5 (ix2 k j) = x5 (ix4 (0 : Fin 4) (1 : Fin 2) k j) from
    select_matrix_apply (G := 4) (O := 2) (K := 128) (N := 128) x5 (0 : Fin 4) (1 : Fin 2) _ _ _ _ k j]

theorem rd_v70 (r : Fin 20000) (j : Fin 128) :
    val_main_v70 (F := Ideal) x1 x2 x5 x8 x9 (ix2 r j) = ((∑ k : Fin 128, x2 (ix2 r k) * x5 (ix4 (0 : Fin 4) (0 : Fin 2) k j)) + (∑ k : Fin 128, (val_main_v66 (F := Ideal) x1 x2 x8 x9) (ix2 r k) * x5 (ix4 (0 : Fin 4) (1 : Fin 2) k j))) := by
  unfold val_main_v70
  show (val_main_v52 (F := Ideal) x2 x5 (ix2 r j) + val_main_v69 (F := Ideal) x1 x2 x5 x8 x9 (ix2 r j)) = _
  rw [rd_v52, rd_v69]

theorem rd_v71 (r : Fin 20000) (j : Fin 128) :
    val_main_v71 (F := Ideal) x0 x1 x2 x4 x5 x8 x9 (ix2 r j) = pre x0 (val_main_v43 (F := Ideal) x0 x1 x8 x9) x2 (val_main_v66 (F := Ideal) x1 x2 x8 x9) x4 x5 (0 : Fin 4) r j := by
  unfold val_main_v71
  show (val_main_v47 (F := Ideal) x0 x1 x4 x8 x9 (ix2 r j) + val_main_v70 (F := Ideal) x1 x2 x5 x8 x9 (ix2 r j)) = _
  rw [rd_v47, rd_v70]
  rfl

theorem rd_v75 (r : Fin 20000) (j : Fin 128) :
    val_main_v75 (F := Ideal) x7 (ix2 r j) = x7 (ix2 (0 : Fin 3) j) := by
  exact select_row_apply (G := 3) (N := 128) (M := 20000) (by decide) x7 (0 : Fin 3) _ _ _ _ r j

theorem rd_v76 (r : Fin 20000) (j : Fin 128) :
    val_main_v76 (F := Ideal) x3 x7 (ix2 r j) = (x7 (ix2 (0 : Fin 3) j) * x3 (ix2 r j)) := by
  unfold val_main_v76
  show (val_main_v75 (F := Ideal) x7 (ix2 r j) * x3 (ix2 r j)) = _
  rw [rd_v75]

theorem rd_v77 (r : Fin 20000) (j : Fin 128) :
    val_main_v77 (F := Ideal) x0 x1 x2 x3 x4 x5 x7 x8 x9 (ix2 r j) = (pre x0 (val_main_v43 (F := Ideal) x0 x1 x8 x9) x2 (val_main_v66 (F := Ideal) x1 x2 x8 x9) x4 x5 (0 : Fin 4) r j + (x7 (ix2 (0 : Fin 3) j) * x3 (ix2 r j))) := by
  unfold val_main_v77
  show (val_main_v71 (F := Ideal) x0 x1 x2 x4 x5 x8 x9 (ix2 r j) + val_main_v76 (F := Ideal) x3 x7 (ix2 r j)) = _
  rw [rd_v71, rd_v76]

theorem rd_v81 (r : Fin 20000) (j : Fin 128) :
    val_main_v81 (F := Ideal) x6 (ix2 r j) = x6 (ix2 (0 : Fin 4) j) := by
  exact select_row_apply (G := 4) (N := 128) (M := 20000) (by decide) x6 (0 : Fin 4) _ _ _ _ r j

theorem rd_v82 (r : Fin 20000) (j : Fin 128) :
    val_main_v82 (F := Ideal) x0 x1 x2 x3 x4 x5 x6 x7 x8 x9 (ix2 r j) = ((pre x0 (val_main_v43 (F := Ideal) x0 x1 x8 x9) x2 (val_main_v66 (F := Ideal) x1 x2 x8 x9) x4 x5 (0 : Fin 4) r j + (x7 (ix2 (0 : Fin 3) j) * x3 (ix2 r j))) + x6 (ix2 (0 : Fin 4) j)) := by
  unfold val_main_v82
  show (val_main_v77 (F := Ideal) x0 x1 x2 x3 x4 x5 x7 x8 x9 (ix2 r j) + val_main_v81 (F := Ideal) x6 (ix2 r j)) = _
  rw [rd_v77, rd_v81]

theorem rd_v83 (r : Fin 20000) (j : Fin 128) :
    val_main_v83 (F := Ideal) x0 x1 x2 x3 x4 x5 x6 x7 x8 x9 (ix2 r j) = (-(((pre x0 (val_main_v43 (F := Ideal) x0 x1 x8 x9) x2 (val_main_v66 (F := Ideal) x1 x2 x8 x9) x4 x5 (0 : Fin 4) r j + (x7 (ix2 (0 : Fin 3) j) * x3 (ix2 r j))) + x6 (ix2 (0 : Fin 4) j)))) := by
  unfold val_main_v83
  show (-(val_main_v82 (F := Ideal) x0 x1 x2 x3 x4 x5 x6 x7 x8 x9 (ix2 r j))) = _
  rw [rd_v82]

theorem rd_v84 (r : Fin 20000) (j : Fin 128) :
    val_main_v84 (F := Ideal) x0 x1 x2 x3 x4 x5 x6 x7 x8 x9 (ix2 r j) = Ideal.exp ((-(((pre x0 (val_main_v43 (F := Ideal) x0 x1 x8 x9) x2 (val_main_v66 (F := Ideal) x1 x2 x8 x9) x4 x5 (0 : Fin 4) r j + (x7 (ix2 (0 : Fin 3) j) * x3 (ix2 r j))) + x6 (ix2 (0 : Fin 4) j))))) := by
  unfold val_main_v84
  show Ideal.exp (val_main_v83 (F := Ideal) x0 x1 x2 x3 x4 x5 x6 x7 x8 x9 (ix2 r j)) = _
  rw [rd_v83]

theorem rd_v86 (r : Fin 20000) (j : Fin 128) :
    val_main_v86 (F := Ideal) x0 x1 x2 x3 x4 x5 x6 x7 x8 x9 (ix2 r j) = (Ideal.ofBits .f32 0x3F800000#32 + Ideal.exp ((-(((pre x0 (val_main_v43 (F := Ideal) x0 x1 x8 x9) x2 (val_main_v66 (F := Ideal) x1 x2 x8 x9) x4 x5 (0 : Fin 4) r j + (x7 (ix2 (0 : Fin 3) j) * x3 (ix2 r j))) + x6 (ix2 (0 : Fin 4) j)))))) := by
  unfold val_main_v86
  show (val_main_v85 (F := Ideal) (ix2 r j) + val_main_v84 (F := Ideal) x0 x1 x2 x3 x4 x5 x6 x7 x8 x9 (ix2 r j)) = _
  rw [rd_v85, rd_v84]

theorem rd_v88 (r : Fin 20000) (j : Fin 128) :
    val_main_v88 (F := Ideal) x0 x1 x2 x3 x4 x5 x6 x7 x8 x9 (ix2 r j) = iGate x0 (val_main_v43 (F := Ideal) x0 x1 x8 x9) x2 (val_main_v66 (F := Ideal) x1 x2 x8 x9) x3 x4 x5 x7 x6 r j := by
  unfold val_main_v88
  show Ideal.div (val_main_v87 (F := Ideal) (ix2 r j)) (val_main_v86 (F := Ideal) x0 x1 x2 x3 x4 x5 x6 x7 x8 x9 (ix2 r j)) = _
  rw [rd_v87, rd_v86]
  rw [ofBits_one_f32]; rfl

theorem rd_v158 (r : Fin 20000) (j : Fin 128) :
    val_main_v158 (F := Ideal) x0 x4 (ix2 r j) = (∑ k : Fin 128, x0 (ix2 r k) * x4 (ix4 (2 : Fin 4) (0 : Fin 2) k j)) := by
  unfold val_main_v158
  refine (dotGeneral_plain_apply 20000 128 128 none _ _ r j).trans (Finset.sum_congr rfl fun k _ => ?_)
  rw [show val_main_v157 (F := Ideal) x4 (ix2 k j) = x4 (ix4 (2 : Fin 4) (0 : Fin 2) k j) from
    select_matrix_apply (G := 4) (O := 2) (K := 128) (N := 128) x4 (2 : Fin 4) (0 : Fin 2) _ _ _ _ k j]

theorem rd_v175 (r : Fin 20000) (j : Fin 128) :
    val_main_v175 (F := Ideal) x0 x1 x4 x8 x9 (ix2 r j) = (∑ k : Fin 128, (val_main_v43 (F := Ideal) x0 x1 x8 x9) (ix2 r k) * x4 (ix4 (2 : Fin 4) (1 : Fin 2) k j)) := by
  unfold val_main_v175
  rw [lap_v172]
  refine (dotGeneral_plain_apply 20000 128 128 none _ _ r j).trans (Finset.sum_congr rfl fun k _ => ?_)
  rw [show val_main_v174 (F := Ideal) x4 (ix2 k j) = x4 (ix4 (2 : Fin 4) (1 : Fin 2) k j) from
    select_matrix_apply (G := 4) (O := 2) (K := 128) (N := 128) x4 (2 : Fin 4) (1 : Fin 2) _ _ _ _ k j]

theorem rd_v176 (r : Fin 20000) (j : Fin 128) :
    val_main_v176 (F := Ideal) x0 x1 x4 x8 x9 (ix2 r j) = ((∑ k : Fin 128, x0 (ix2 r k) * x4 (ix4 (2 : Fin 4) (0 : Fin 2) k j)) + (∑ k : Fin 128, (val_main_v43 (F := Ideal) x0 x1 x8 x9) (ix2 r k) * x4 (ix4 (2 : Fin 4) (1 : Fin 2) k j))) := by
  unfold val_main_v176
  show (val_main_v158 (F := Ideal) x0 x4 (ix2 r j) + val_main_v175 (F := Ideal) x0 x1 x4 x8 x9 (ix2 r j)) = _
  rw [rd_v158, rd_v175]

theorem rd_v181 (r : Fin 20000) (j : Fin 128) :
    val_main_v181 (F := Ideal) x2 x5 (ix2 r j) = (∑ k : Fin 128, x2 (ix2 r k) * x5 (ix4 (2 : Fin 4) (0 : Fin 2) k j)) := by
  unfold val_main_v181
  refine (dotGeneral_plain_apply 20000 128 128 none _ _ r j).trans (Finset.sum_congr rfl fun k _ => ?_)
  rw [show val_main_v180 (F := Ideal) x5 (ix2 k j) = x5 (ix4 (2 : Fin 4) (0 : Fin 2) k j) from
    select_matrix_apply (G := 4) (O := 2) (K := 128) (N := 128) x5 (2 : Fin 4) (0 : Fin 2) _ _ _ _ k j]

theorem rd_v198 (r : Fin 20000) (j : Fin 128) :
    val_main_v198 (F := Ideal) x1 x2 x5 x8 x9 (ix2 r j) = (∑ k : Fin 128, (val_main_v66 (F := Ideal) x1 x2 x8 x9) (ix2 r k) * x5 (ix4 (2 : Fin 4) (1 : Fin 2) k j)) := by
  unfold val_main_v198
  rw [lap_v195]
  refine (dotGeneral_plain_apply 20000 128 128 none _ _ r j).trans (Finset.sum_congr rfl fun k _ => ?_)
  rw [show val_main_v197 (F := Ideal) x5 (ix2 k j) = x5 (ix4 (2 : Fin 4) (1 : Fin 2) k j) from
    select_matrix_apply (G := 4) (O := 2) (K := 128) (N := 128) x5 (2 : Fin 4) (1 : Fin 2) _ _ _ _ k j]

theorem rd_v199 (r : Fin 20000) (j : Fin 128) :
    val_main_v199 (F := Ideal) x1 x2 x5 x8 x9 (ix2 r j) = ((∑ k : Fin 128, x2 (ix2 r k) * x5 (ix4 (2 : Fin 4) (0 : Fin 2) k j)) + (∑ k : Fin 128, (val_main_v66 (F := Ideal) x1 x2 x8 x9) (ix2 r k) * x5 (ix4 (2 : Fin 4) (1 : Fin 2) k j))) := by
  unfold val_main_v199
  show (val_main_v181 (F := Ideal) x2 x5 (ix2 r j) + val_main_v198 (F := Ideal) x1 x2 x5 x8 x9 (ix2 r j)) = _
  rw [rd_v181, rd_v198]

theorem rd_v200 (r : Fin 20000) (j : Fin 128) :
    val_main_v200 (F := Ideal) x0 x1 x2 x4 x5 x8 x9 (ix2 r j) = pre x0 (val_main_v43 (F := Ideal) x0 x1 x8 x9) x2 (val_main_v66 (F := Ideal) x1 x2 x8 x9) x4 x5 (2 : Fin 4) r j := by
  unfold val_main_v200
  show (val_main_v176 (F := Ideal) x0 x1 x4 x8 x9 (ix2 r j) + val_main_v199 (F := Ideal) x1 x2 x5 x8 x9 (ix2 r j)) = _
  rw [rd_v176, rd_v199]
  rfl

theorem rd_v204 (r : Fin 20000) (j : Fin 128) :
    val_main_v204 (F := Ideal) x6 (ix2 r j) = x6 (ix2 (2 : Fin 4) j) := by
  exact select_row_apply (G := 4) (N := 128) (M := 20000) (by decide) x6 (2 : Fin 4) _ _ _ _ r j

theorem rd_v205 (r : Fin 20000) (j : Fin 128) :
    val_main_v205 (F := Ideal) x0 x1 x2 x4 x5 x6 x8 x9 (ix2 r j) = (pre x0 (val_main_v43 (F := Ideal) x0 x1 x8 x9) x2 (val_main_v66 (F := Ideal) x1 x2 x8 x9) x4 x5 (2 : Fin 4) r j + x6 (ix2 (2 : Fin 4) j)) := by
  unfold val_main_v205
  show (val_main_v200 (F := Ideal) x0 x1 x2 x4 x5 x8 x9 (ix2 r j) + val_main_v204 (F := Ideal) x6 (ix2 r j)) = _
  rw [rd_v200, rd_v204]

theorem rd_v206 (r : Fin 20000) (j : Fin 128) :
    val_main_v206 (F := Ideal) x0 x1 x2 x4 x5 x6 x8 x9 (ix2 r j) = gGate x0 (val_main_v43 (F := Ideal) x0 x1 x8 x9) x2 (val_main_v66 (F := Ideal) x1 x2 x8 x9) x4 x5 x6 r j := by
  unfold val_main_v206
  show Ideal.tanh (val_main_v205 (F := Ideal) x0 x1 x2 x4 x5 x6 x8 x9 (ix2 r j)) = _
  rw [rd_v205]
  rfl

theorem rd_v207 (r : Fin 20000) (j : Fin 128) :
    val_main_v207 (F := Ideal) x0 x1 x2 x3 x4 x5 x6 x7 x8 x9 (ix2 r j) = (iGate x0 (val_main_v43 (F := Ideal) x0 x1 x8 x9) x2 (val_main_v66 (F := Ideal) x1 x2 x8 x9) x3 x4 x5 x7 x6 r j * gGate x0 (val_main_v43 (F := Ideal) x0 x1 x8 x9) x2 (val_main_v66 (F := Ideal) x1 x2 x8 x9) x4 x5 x6 r j) := by
  unfold val_main_v207
  show (val_main_v88 (F := Ideal) x0 x1 x2 x3 x4 x5 x6 x7 x8 x9 (ix2 r j) * val_main_v206 (F := Ideal) x0 x1 x2 x4 x5 x6 x8 x9 (ix2 r j)) = _
  rw [rd_v88, rd_v206]

theorem rd_v208 (r : Fin 20000) (j : Fin 128) :
    val_main_v208 (F := Ideal) x0 x1 x2 x3 x4 x5 x6 x7 x8 x9 (ix2 r j) = cNew x0 (val_main_v43 (F := Ideal) x0 x1 x8 x9) x2 (val_main_v66 (F := Ideal) x1 x2 x8 x9) x3 x4 x5 x7 x6 r j := by
  unfold val_main_v208
  show (val_main_v153 (F := Ideal) x0 x1 x2 x3 x4 x5 x6 x7 x8 x9 (ix2 r j) + val_main_v207 (F := Ideal) x0 x1 x2 x3 x4 x5 x6 x7 x8 x9 (ix2 r j)) = _
  rw [rd_v153, rd_v207]
  rfl

theorem rd_v260 (r : Fin 20000) (j : Fin 128) :
    val_main_v260 (F := Ideal) x0 x1 x2 x3 x4 x5 x6 x7 x8 x9 (ix2 r j) = (x7 (ix2 (2 : Fin 3) j) * cNew x0 (val_main_v43 (F := Ideal) x0 x1 x8 x9) x2 (val_main_v66 (F := Ideal) x1 x2 x8 x9) x3 x4 x5 x7 x6 r j) := by
  unfold val_main_v260
  show (val_main_v259 (F := Ideal) x7 (ix2 r j) * val_main_v208 (F := Ideal) x0 x1 x2 x3 x4 x5 x6 x7 x8 x9 (ix2 r j)) = _
  rw [rd_v259, rd_v208]

theorem rd_v261 (r : Fin 20000) (j : Fin 128) :
    val_main_v261 (F := Ideal) x0 x1 x2 x3 x4 x5 x6 x7 x8 x9 (ix2 r j) = (pre x0 (val_main_v43 (F := Ideal) x0 x1 x8 x9) x2 (val_main_v66 (F := Ideal) x1 x2 x8 x9) x4 x5 (3 : Fin 4) r j + (x7 (ix2 (2 : Fin 3) j) * cNew x0 (val_main_v43 (F := Ideal) x0 x1 x8 x9) x2 (val_main_v66 (F := Ideal) x1 x2 x8 x9) x3 x4 x5 x7 x6 r j)) := by
  unfold val_main_v261
  show (val_main_v255 (F := Ideal) x0 x1 x2 x4 x5 x8 x9 (ix2 r j) + val_main_v260 (F := Ideal) x0 x1 x2 x3 x4 x5 x6 x7 x8 x9 (ix2 r j)) = _
  rw [rd_v255, rd_v260]

theorem rd_v265 (r : Fin 20000) (j : Fin 128) :
    val_main_v265 (F := Ideal) x6 (ix2 r j) = x6 (ix2 (3 : Fin 4) j) := by
  exact select_row_apply (G := 4) (N := 128) (M := 20000) (by decide) x6 (3 : Fin 4) _ _ _ _ r j

theorem rd_v266 (r : Fin 20000) (j : Fin 128) :
    val_main_v266 (F := Ideal) x0 x1 x2 x3 x4 x5 x6 x7 x8 x9 (ix2 r j) = ((pre x0 (val_main_v43 (F := Ideal) x0 x1 x8 x9) x2 (val_main_v66 (F := Ideal) x1 x2 x8 x9) x4 x5 (3 : Fin 4) r j + (x7 (ix2 (2 : Fin 3) j) * cNew x0 (val_main_v43 (F := Ideal) x0 x1 x8 x9) x2 (val_main_v66 (F := Ideal) x1 x2 x8 x9) x3 x4 x5 x7 x6 r j)) + x6 (ix2 (3 : Fin 4) j)) := by
  unfold val_main_v266
  show (val_main_v261 (F := Ideal) x0 x1 x2 x3 x4 x5 x6 x7 x8 x9 (ix2 r j) + val_main_v265 (F := Ideal) x6 (ix2 r j)) = _
  rw [rd_v261, rd_v265]

theorem rd_v267 (r : Fin 20000) (j : Fin 128) :
    val_main_v267 (F := Ideal) x0 x1 x2 x3 x4 x5 x6 x7 x8 x9 (ix2 r j) = (-(((pre x0 (val_main_v43 (F := Ideal) x0 x1 x8 x9) x2 (val_main_v66 (F := Ideal) x1 x2 x8 x9) x4 x5 (3 : Fin 4) r j + (x7 (ix2 (2 : Fin 3) j) * cNew x0 (val_main_v43 (F := Ideal) x0 x1 x8 x9) x2 (val_main_v66 (F := Ideal) x1 x2 x8 x9) x3 x4 x5 x7 x6 r j)) + x6 (ix2 (3 : Fin 4) j)))) := by
  unfold val_main_v267
  show (-(val_main_v266 (F := Ideal) x0 x1 x2 x3 x4 x5 x6 x7 x8 x9 (ix2 r j))) = _
  rw [rd_v266]

theorem rd_v268 (r : Fin 20000) (j : Fin 128) :
    val_main_v268 (F := Ideal) x0 x1 x2 x3 x4 x5 x6 x7 x8 x9 (ix2 r j) = Ideal.exp ((-(((pre x0 (val_main_v43 (F := Ideal) x0 x1 x8 x9) x2 (val_main_v66 (F := Ideal) x1 x2 x8 x9) x4 x5 (3 : Fin 4) r j + (x7 (ix2 (2 : Fin 3) j) * cNew x0 (val_main_v43 (F := Ideal) x0 x1 x8 x9) x2 (val_main_v66 (F := Ideal) x1 x2 x8 x9) x3 x4 x5 x7 x6 r j)) + x6 (ix2 (3 : Fin 4) j))))) := by
  unfold val_main_v268
  show Ideal.exp (val_main_v267 (F := Ideal) x0 x1 x2 x3 x4 x5 x6 x7 x8 x9 (ix2 r j)) = _
  rw [rd_v267]

theorem rd_v270 (r : Fin 20000) (j : Fin 128) :
    val_main_v270 (F := Ideal) x0 x1 x2 x3 x4 x5 x6 x7 x8 x9 (ix2 r j) = (Ideal.ofBits .f32 0x3F800000#32 + Ideal.exp ((-(((pre x0 (val_main_v43 (F := Ideal) x0 x1 x8 x9) x2 (val_main_v66 (F := Ideal) x1 x2 x8 x9) x4 x5 (3 : Fin 4) r j + (x7 (ix2 (2 : Fin 3) j) * cNew x0 (val_main_v43 (F := Ideal) x0 x1 x8 x9) x2 (val_main_v66 (F := Ideal) x1 x2 x8 x9) x3 x4 x5 x7 x6 r j)) + x6 (ix2 (3 : Fin 4) j)))))) := by
  unfold val_main_v270
  show (val_main_v269 (F := Ideal) (ix2 r j) + val_main_v268 (F := Ideal) x0 x1 x2 x3 x4 x5 x6 x7 x8 x9 (ix2 r j)) = _
  rw [rd_v269, rd_v268]

theorem rd_v272 (r : Fin 20000) (j : Fin 128) :
    val_main_v272 (F := Ideal) x0 x1 x2 x3 x4 x5 x6 x7 x8 x9 (ix2 r j) = oGate x0 (val_main_v43 (F := Ideal) x0 x1 x8 x9) x2 (val_main_v66 (F := Ideal) x1 x2 x8 x9) x3 x4 x5 x7 x6 r j := by
  unfold val_main_v272
  show Ideal.div (val_main_v271 (F := Ideal) (ix2 r j)) (val_main_v270 (F := Ideal) x0 x1 x2 x3 x4 x5 x6 x7 x8 x9 (ix2 r j)) = _
  rw [rd_v271, rd_v270]
  rw [ofBits_one_f32]; rfl

theorem rd_v273 (r : Fin 20000) (j : Fin 128) :
    val_main_v273 (F := Ideal) x0 x1 x2 x3 x4 x5 x6 x7 x8 x9 (ix2 r j) = Ideal.tanh (cNew x0 (val_main_v43 (F := Ideal) x0 x1 x8 x9) x2 (val_main_v66 (F := Ideal) x1 x2 x8 x9) x3 x4 x5 x7 x6 r j) := by
  unfold val_main_v273
  show Ideal.tanh (val_main_v208 (F := Ideal) x0 x1 x2 x3 x4 x5 x6 x7 x8 x9 (ix2 r j)) = _
  rw [rd_v208]

theorem rd_v274 (r : Fin 20000) (j : Fin 128) :
    val_main_v274 (F := Ideal) x0 x1 x2 x3 x4 x5 x6 x7 x8 x9 (ix2 r j) = hNew x0 (val_main_v43 (F := Ideal) x0 x1 x8 x9) x2 (val_main_v66 (F := Ideal) x1 x2 x8 x9) x3 x4 x5 x7 x6 r j := by
  unfold val_main_v274
  show (val_main_v272 (F := Ideal) x0 x1 x2 x3 x4 x5 x6 x7 x8 x9 (ix2 r j) * val_main_v273 (F := Ideal) x0 x1 x2 x3 x4 x5 x6 x7 x8 x9 (ix2 r j)) = _
  rw [rd_v272, rd_v273]
  rfl

/-- THE HIDDEN-STATE RESULT at (r, j) is the cell's h'. -/
theorem ref_h (r : Fin 20000) (j : Fin 128) :
    val_main_v274 (F := Ideal) x0 x1 x2 x3 x4 x5 x6 x7 x8 x9 (ix2 r j)
      = hNew x0 (val_main_v43 (F := Ideal) x0 x1 x8 x9) x2 (val_main_v66 (F := Ideal) x1 x2 x8 x9) x3 x4 x5 x7 x6 r j :=
  rd_v274 x0 x1 x2 x3 x4 x5 x6 x7 x8 x9 r j

/-- THE CELL-STATE RESULT at (r, j) is the cell's c'. -/
theorem ref_c (r : Fin 20000) (j : Fin 128) :
    val_main_v208 (F := Ideal) x0 x1 x2 x3 x4 x5 x6 x7 x8 x9 (ix2 r j)
      = cNew x0 (val_main_v43 (F := Ideal) x0 x1 x8 x9) x2 (val_main_v66 (F := Ideal) x1 x2 x8 x9) x3 x4 x5 x7 x6 r j :=
  rd_v208 x0 x1 x2 x3 x4 x5 x6 x7 x8 x9 r j

end Cert.ReferenceIdeal.RefValue

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.Bridge.lean ====
/-
  One pass or two: the propagated features are the same numbers.

  The kernel's host code propagates the concatenation [x | h] in ONE edge pass (gather the source rows of the
  256-column table, weight them, add them into the destination rows, negate) and cuts the result into its x half
  and its h half; the reference propagates x and h separately, 128 columns each, with the same edge weights, the
  same source and destination lists. Column c of a row scatter of weighted gathered rows only ever meets column c
  of the table, so the x half of the fused result IS the propagation of x and the h half that of h, entry by entry.
  The edge weights themselves (the symmetric normalisation) are computed by the same operations in both programs.
-/
import proofs.«116808_j35459249996211_2_alg».proof.Proof.KernelHost
import proofs.«116808_j35459249996211_2_alg».proof.Proof.RefReadP
import proofs.«116808_j35459249996211_2_alg».proof.Proof.LibRowGatherScatter
import Idealize.ShloMosaic.PureOps.Ideal
import Idealize.ShloMosaic.Lib.Pipeline.Value
import Idealize.ShloMosaic.Lib.ValueIdx

noncomputable section

open scoped BigOperators

namespace Cert.Bridge

open Idealize.ShloMosaic Idealize.ShloMosaic.ValueIdx Cert.LibRowGatherScatter

variable (x0 x2 : (⟨Cert.ReferenceIdeal.S20000x128, .f32⟩ : BufTy).Contents (Elt Ideal))
  (x1 : (⟨Cert.ReferenceIdeal.S640000, .f32⟩ : BufTy).Contents (Elt Ideal))
  (x8 x9 : (⟨Cert.ReferenceIdeal.S640000, .i32⟩ : BufTy).Contents (Elt Ideal))

/-- Column k of the x half of the 256 columns. -/
def lo (k : Fin 128) : Fin 256 := ⟨k.val, by have := k.isLt; omega⟩
/-- Column k of the h half: k + 128. -/
def hi (k : Fin 128) : Fin 256 := ⟨k.val + 128, by have := k.isLt; omega⟩

set_option maxRecDepth 8192 in
/-- The symmetric edge normalisation is one term in both programs. -/
theorem wsym_eq : Cert.KernelIdeal.HostVal.wsym (F := Ideal) x1 x8 x9 = Cert.ReferenceIdeal.ReadP.val_main_v24 (F := Ideal) x1 x8 x9 := rfl

/-- The x half of the one-pass propagation of [x | h], entry by entry, is the reference's propagation of x. -/
theorem lapX_eq (r : Fin 20000) (k : Fin 128) :
    Cert.KernelIdeal.HostVal.lapX (F := Ideal) x0 x2 (Cert.KernelIdeal.HostVal.wsym (F := Ideal) x1 x8 x9) x8 x9 (ix2 r k)
      = Cert.ReferenceIdeal.ReadP.val_main_v43 (F := Ideal) x0 x1 x8 x9 (ix2 r k) := by
  have hs : Cert.KernelIdeal.HostVal.lapX (F := Ideal) x0 x2 (Cert.KernelIdeal.HostVal.wsym (F := Ideal) x1 x8 x9) x8 x9 (ix2 r k)
      = Cert.KernelIdeal.HostVal.lap256 (F := Ideal) x0 x2 (Cert.KernelIdeal.HostVal.wsym (F := Ideal) x1 x8 x9) x8 x9 (ix2 r (lo k)) := by
    unfold Cert.KernelIdeal.HostVal.lapX
    dsimp only
    refine (truncf_apply _ Cert.KernelIdeal.Facts₀.bitsLt_bf16_f32 _).trans ?_
    generalize Cert.KernelIdeal.HostVal.lap256 (F := Ideal) x0 x2 (Cert.KernelIdeal.HostVal.wsym (F := Ideal) x1 x8 x9) x8 x9 = y
    refine extractStridedSlice_apply ![0, 0] y Cert.KernelIdeal.Facts₀.slices_S20000x256_S20000x128_0_0 (ix2 r k) (ix2 r (lo k)) ?_
    intro a
    match a with
    | ⟨0, _⟩ => show r.val = 0 + r.val; omega
    | ⟨1, _⟩ => show k.val = 0 + k.val; omega
  rw [hs]
  unfold Cert.KernelIdeal.HostVal.lap256 Cert.ReferenceIdeal.ReadP.val_main_v43 Cert.ReferenceIdeal.ReadP.val_main_v42 Cert.ReferenceIdeal.ReadP.val_main_v39 Cert.ReferenceIdeal.ReadP.val_main_v37
  dsimp only
  refine neg_scatter_mul_gather_congr (R := 20000) (N := 640000) (C := 256) (C' := 128)
    Cert.KernelIdeal.scatter_S20000x256_S640000x1_S640000x256_1_0_0_1 Cert.KernelIdeal.gather_S20000x256_S640000x1_S640000x256_1_0_n_n_0_1_1256
    Cert.ReferenceIdeal.scatter_S20000x128_S640000x1_S640000x128_1_0_0_1 Cert.ReferenceIdeal.gather_S20000x128_S640000x1_S640000x128_1_0_n_n_0_1_1128
    rfl rfl rfl rfl rfl rfl rfl rfl rfl rfl rfl rfl rfl rfl rfl rfl rfl rfl rfl rfl rfl rfl (by decide)
    _ _ _ _ _ _ _ _ r (lo k) k ?hz ?hw ?hx
  case hz => rfl
  case hw =>
    intro n
    refine (bcast_col_apply (N := 640000) (C := 256) (by decide) _ _ _ n (lo k)).trans ?_
    refine Eq.trans ?_ (bcast_col_apply (N := 640000) (C := 128) (by decide)
      (Cert.ReferenceIdeal.ReadP.val_main_v24 (F := Ideal) x1 x8 x9) _ _ n k).symm
    exact congrFun (wsym_eq x1 x8 x9) (ix1 n)
  case hx =>
    intro ρ
    exact concatenate_pair_apply_left (1 : Fin 2) x0 x2 Cert.KernelIdeal.Facts₀.concatenates_S20000x128_S20000x128_S20000x256_d1 (ix2 ρ (lo k)) rfl (ix2 ρ k)
      (fun b => match b with | ⟨0, _⟩ => rfl | ⟨1, _⟩ => rfl)

/-- The h half of the one-pass propagation of [x | h], entry by entry, is the reference's propagation of h. -/
theorem lapH_eq (r : Fin 20000) (k : Fin 128) :
    Cert.KernelIdeal.HostVal.lapH (F := Ideal) x0 x2 (Cert.KernelIdeal.HostVal.wsym (F := Ideal) x1 x8 x9) x8 x9 (ix2 r k)
      = Cert.ReferenceIdeal.ReadP.val_main_v66 (F := Ideal) x1 x2 x8 x9 (ix2 r k) := by
  have hs : Cert.KernelIdeal.HostVal.lapH (F := Ideal) x0 x2 (Cert.KernelIdeal.HostVal.wsym (F := Ideal) x1 x8 x9) x8 x9 (ix2 r k)
      = Cert.KernelIdeal.HostVal.lap256 (F := Ideal) x0 x2 (Cert.KernelIdeal.HostVal.wsym (F := Ideal) x1 x8 x9) x8 x9 (ix2 r (hi k)) := by
    unfold Cert.KernelIdeal.HostVal.lapH
    dsimp only
    refine (truncf_apply _ Cert.KernelIdeal.Facts₀.bitsLt_bf16_f32 _).trans ?_
    generalize Cert.KernelIdeal.HostVal.lap256 (F := Ideal) x0 x2 (Cert.KernelIdeal.HostVal.wsym (F := Ideal) x1 x8 x9) x8 x9 = y
    refine extractStridedSlice_apply ![0, 128] y Cert.KernelIdeal.Facts₀.slices_S20000x256_S20000x128_0_128 (ix2 r k) (ix2 r (hi k)) ?_
    intro a
    match a with
    | ⟨0, _⟩ => show r.val = 0 + r.val; omega
    | ⟨1, _⟩ => show k.val + 128 = 128 + k.val; omega
  rw [hs]
  unfold Cert.KernelIdeal.HostVal.lap256 Cert.ReferenceIdeal.ReadP.val_main_v66 Cert.ReferenceIdeal.ReadP.val_main_v65 Cert.ReferenceIdeal.ReadP.val_main_v62 Cert.ReferenceIdeal.ReadP.val_main_v60
  dsimp only
  refine neg_scatter_mul_gather_congr (R := 20000) (N := 640000) (C := 256) (C' := 128)
    Cert.KernelIdeal.scatter_S20000x256_S640000x1_S640000x256_1_0_0_1 Cert.KernelIdeal.gather_S20000x256_S640000x1_S640000x256_1_0_n_n_0_1_1256
    Cert.ReferenceIdeal.scatter_S20000x128_S640000x1_S640000x128_1_0_0_1 Cert.ReferenceIdeal.gather_S20000x128_S640000x1_S640000x128_1_0_n_n_0_1_1128
    rfl rfl rfl rfl rfl rfl rfl rfl rfl rfl rfl rfl rfl rfl rfl rfl rfl rfl rfl rfl rfl rfl (by decide)
    _ _ _ _ _ _ _ _ r (hi k) k ?hz ?hw ?hx
  case hz => rfl
  case hw =>
    intro n
    refine (bcast_col_apply (N := 640000) (C := 256) (by decide) _ _ _ n (hi k)).trans ?_
    refine Eq.trans ?_ (bcast_col_apply (N := 640000) (C := 128) (by decide)
      (Cert.ReferenceIdeal.ReadP.val_main_v24 (F := Ideal) x1 x8 x9) _ _ n k).symm
    exact congrFun (wsym_eq x1 x8 x9) (ix1 n)
  case hx =>
    intro ρ
    exact concatenate_pair_apply_right (1 : Fin 2) x0 x2 Cert.KernelIdeal.Facts₀.concatenates_S20000x128_S20000x128_S20000x256_d1 (ix2 ρ (hi k)) rfl rfl (ix2 ρ k)
      (fun b hb => match b, hb with | ⟨0, _⟩, _ => rfl | ⟨1, _⟩, hb => absurd rfl hb) rfl

end Cert.Bridge

end
-- ==== Proof.lean ====
/-
  A graph-convolutional LSTM cell (Chebyshev order 2) against its reference, on the extended reals.

  Both programs normalise the edge weights symmetrically and propagate node features along the edges by the scaled
  Laplacian; each of the four gates is x · Wx[g, 0] + L̂x · Wx[g, 1] + h · Wh[g, 0] + L̂h · Wh[g, 1] (+ a peephole on
  the cell state, + a bias), and c' = f · c + i · g, h' = o · tanh c'.

  The kernel differs from the reference in arrangement only. It propagates [x | h] in one edge pass instead of two,
  and column c of a row scatter of weighted gathered rows only meets column c, so the two halves of the fused result
  are the two separate propagations. It re-lays each weight tensor as one 256 × 512 matrix and multiplies all four
  gates at once, where the reference cuts one 128 × 128 matrix per gate and order out of the tensor: entry
  (k, g · 128 + q) of the re-laid matrix is the tensor's entry (g, order, k, q). It narrows its operands to bf16,
  which on the extended reals is the identity. It runs the gate arithmetic on ten blocks of 2000 rows, in the same
  grouping of every sum as the reference; the logistic function the kernel calls is the 1 / (1 + exp (−z)) the
  reference spells out. Nothing is rearranged across a sum, so the finiteness of the inputs is never used.

  So both result pairs are the cell's (h', c') as ONE function of the argument arrays (Proof/Spec.lean), entry by entry:
  the kernel's by Proof/KernelValue.lean (blocks to arrays) over Proof/KernelBlock.lean (one entry of a block),
  the reference's by Proof/RefValue.lean, and the propagated features agree by Proof/Bridge.lean. The three frames are
  the generated ones (the reference's is its run with the results dropped); the idealization rewrote nothing.
-/
import proofs.«116808_j35459249996211_2_alg».proof.Defs
import proofs.«116808_j35459249996211_2_alg».proof.Proof.Gen.Kernel
import proofs.«116808_j35459249996211_2_alg».proof.Proof.Gen.Kernel.Skeleton
import proofs.«116808_j35459249996211_2_alg».proof.Proof.Gen.Kernel.Launch
import proofs.«116808_j35459249996211_2_alg».proof.Proof.Gen.Kernel.Points
import proofs.«116808_j35459249996211_2_alg».proof.Proof.Gen.Kernel.Frame
import proofs.«116808_j35459249996211_2_alg».proof.Proof.Gen.KernelIdeal
import proofs.«116808_j35459249996211_2_alg».proof.Proof.Gen.KernelIdeal.Skeleton
import proofs.«116808_j35459249996211_2_alg».proof.Proof.Gen.KernelIdeal.Launch
import proofs.«116808_j35459249996211_2_alg».proof.Proof.Gen.KernelIdeal.Points
import proofs.«116808_j35459249996211_2_alg».proof.Proof.Gen.KernelIdeal.Frame
import proofs.«116808_j35459249996211_2_alg».proof.Proof.Gen.ReferenceIdeal
import proofs.«116808_j35459249996211_2_alg».proof.Proof.Gen.Pre_finite_inputs
import proofs.«116808_j35459249996211_2_alg».proof.Proof.Gen.KernelIdeal.Value
import proofs.«116808_j35459249996211_2_alg».proof.Proof.RefRunP
import proofs.«116808_j35459249996211_2_alg».proof.Proof.RefReadP
import proofs.«116808_j35459249996211_2_alg».proof.Proof.Spec
import proofs.«116808_j35459249996211_2_alg».proof.Proof.KernelValue
import proofs.«116808_j35459249996211_2_alg».proof.Proof.RefValue
import proofs.«116808_j35459249996211_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx Cert.GateSpec

/-! ## The frames and the idealization -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote no operation. -/
theorem preserves : Cert.preserves_Kernel_KernelIdeal := trivial

/-! ## The two programs compute one function -/

section Agree

variable (m : (ℓ : Loc Cert.KernelIdeal.nD Cert.KernelIdeal.τ Cert.KernelIdeal.sig) → Buf (Elt Ideal) ℓ) (c : Dev Cert.KernelIdeal.nD)

/-- The kernel's propagated x (one pass, x half) is the reference's propagated x, as arrays. -/
theorem lapX_fun : (Cert.KernelIdeal.ValueH.LXk m c : Act)
    = Cert.ReferenceIdeal.ReadP.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  funext i
  obtain ⟨r, k, rfl⟩ : ∃ (r : Fin 20000) (k : Fin 128), i = ix2 r k := ⟨i 0, i 1, eq_ix2 i⟩
  exact Cert.Bridge.lapX_eq _ _ _ _ _ r k

/-- The kernel's propagated h (one pass, h half) is the reference's propagated h, as arrays. -/
theorem lapH_fun : (Cert.KernelIdeal.ValueH.LHk m c : Act)
    = Cert.ReferenceIdeal.ReadP.val_main_v66 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  funext i
  obtain ⟨r, k, rfl⟩ : ∃ (r : Fin 20000) (k : Fin 128), i = ix2 r k := ⟨i 0, i 1, eq_ix2 i⟩
  exact Cert.Bridge.lapH_eq _ _ _ _ _ r k

/-- The reference's hidden-state result, of the kernel's arguments, is the kernel's. -/
theorem ref_h_eq : Cert.ReferenceIdeal.ReadP.val_main_v274 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    = Cert.KernelIdeal.ValueH.GH m c := by
  funext i
  obtain ⟨r, j, rfl⟩ : ∃ (r : Fin 20000) (j : Fin 128), i = ix2 r j := ⟨i 0, i 1, eq_ix2 i⟩
  rw [Cert.ReferenceIdeal.RefValue.ref_h]
  unfold Cert.KernelIdeal.ValueH.GH
  rw [lapX_fun, lapH_fun]

/-- The reference's cell-state result, of the kernel's arguments, is the kernel's. -/
theorem ref_c_eq : Cert.ReferenceIdeal.ReadP.val_main_v208 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    = Cert.KernelIdeal.ValueH.GC m c := by
  funext i
  obtain ⟨r, j, rfl⟩ : ∃ (r : Fin 20000) (j : Fin 128), i = ix2 r j := ⟨i 0, i 1, eq_ix2 i⟩
  rw [Cert.ReferenceIdeal.RefValue.ref_c]
  unfold Cert.KernelIdeal.ValueH.GC
  rw [lapX_fun, lapH_fun]

end Agree

/-- Run from memories that agree on the ten arguments, both programs end with the cell's (h', h', c'). -/
theorem algebraic : Cert.algebraic_KernelIdeal_ReferenceIdeal := by
  intro m ρ m' ρ' _ hagree
  refine ⟨fun c => Cert.KernelIdeal.ValueH.GH m c, fun c => Cert.KernelIdeal.ValueH.GH m c,
    fun c => Cert.KernelIdeal.ValueH.GC m c, ?_, ?_⟩
  · exact (θ_run Cert.KernelIdeal.defs _ _).mono (fun r h c => ⟨(h c).1, (h c).1, (h c).2.1, (h c).2.2⟩)
      (Cert.KernelIdeal.ValueH.run m ρ)
  · refine (θ_run Cert.ReferenceIdeal.defs _ _).mono (fun r h c => ?_) (Cert.ReferenceIdeal.ValueP.run (F := Ideal) m' ρ')
    obtain ⟨e0, e1, e2, e3, e4, e5, e6, e7, e8, e9⟩ := hagree c
    have hh : Cert.ReferenceIdeal.ValueP.res_main_v274 m' c = Cert.KernelIdeal.ValueH.GH m c := by
      rw [Cert.ReferenceIdeal.ReadP.val_main_v274_eq, e0, e1, e2, e3, e4, e5, e6, e7, e8, e9]
      exact ref_h_eq m c
    have hc : Cert.ReferenceIdeal.ValueP.res_main_v208 m' c = Cert.KernelIdeal.ValueH.GC m c := by
      rw [Cert.ReferenceIdeal.ReadP.val_main_v208_eq, e0, e1, e2, e3, e4, e5, e6, e7, e8, e9]
      exact ref_c_eq m c
    exact ⟨(h c).1.trans hh, (h c).2.1.trans hh, (h c).2.2.1.trans hc, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
